-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x1024 : Shape := ⟨2, ![384, 1024]⟩
abbrev S384 : Shape := ⟨1, ![384]⟩
abbrev S_ : Shape := ⟨0, ![]⟩

class Facts : Prop where
  bcast_S_S384x1024 : S_.BroadcastsInDim S384x1024 (![] : Fin 0 → Fin S384x1024.rank)
  reducesTo_S384x1024_S_d0_1 : S384x1024.ReducesTo [0, 1] S_
  h_S_ : 0 < S_.numel

variable [Facts]

def fn {F : FTy → Type} [FloatOps F] (main_arg0 : FVec F S384x1024 .f32) (main_arg1 : IVec S384 32) : IVec S_ 1 :=
  let main_v0 : FVec F S384x1024 .f32 := Host.absf main_arg0
  let main_cst : FVec F S_ .f32 := constant S_ .f32 0x7F800000#32
  let main_v1 : FVec F S384x1024 .f32 := broadcastInDim S384x1024 ![] bcast_S_S384x1024 main_cst
  let main_v2 : IVec S384x1024 1 := cmpf .olt main_v0 main_v1
  let main_c : IVec S_ 1 := constantI S_ 1 1#1
  let main_v3 : IVec S_ 1 := (fun x v => Host.reduce IntOp.andi x v reducesTo_S384x1024_S_d0_1 h_S_) main_v2 main_c
  main_v3
-- ==== Kernel.lean ====
abbrev S384x1024 : Shape := ⟨2, ![384, 1024]⟩
abbrev S384 : Shape := ⟨1, ![384]⟩
abbrev S384x1 : Shape := ⟨2, ![384, 1]⟩
abbrev S1x384 : Shape := ⟨2, ![1, 384]⟩
abbrev S384x384 : Shape := ⟨2, ![384, 384]⟩
abbrev S1024x384 : Shape := ⟨2, ![1024, 384]⟩
abbrev S1x1 : Shape := ⟨2, ![1, 1]⟩
abbrev S8x384 : Shape := ⟨2, ![8, 384]⟩
abbrev S8x1 : Shape := ⟨2, ![8, 1]⟩
abbrev S8x128 : Shape := ⟨2, ![8, 128]⟩
abbrev S1x128 : Shape := ⟨2, ![1, 128]⟩
abbrev S8x128x1 : Shape := ⟨3, ![8, 128, 1]⟩
abbrev S8x1x384 : Shape := ⟨3, ![8, 1, 384]⟩
abbrev S8x128x384 : Shape := ⟨3, ![8, 128, 384]⟩
abbrev S8 : Shape := ⟨1, ![8]⟩
abbrev S1 : Shape := ⟨1, ![1]⟩
abbrev S_ : Shape := ⟨0, ![]⟩

abbrev nBuf : Space → Nat
  | .hbm => 15
  | .vmem => 7
  | .smem => 0
  | _ => 0

abbrev bufTy : (tb : Table) → Fin (tcTables nBuf tb) → BufTy
  | .hbm, ⟨0, _⟩ => ⟨S384x1024, .f32⟩
  | .hbm, ⟨1, _⟩ => ⟨S384, .i32⟩
  | .hbm, ⟨2, _⟩ => ⟨S384x1, .i32⟩
  | .hbm, ⟨3, _⟩ => ⟨S1x384, .i32⟩
  | .hbm, ⟨4, _⟩ => ⟨S384x384, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .i1⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .local _ .vmem, ⟨0, _⟩ => ⟨S384x1024, .f32⟩
  | .local _ .vmem, ⟨1, _⟩ => ⟨S384x384, .f32⟩
  | .local _ .vmem, ⟨2, _⟩ => ⟨S384x384, .f32⟩
  | .local _ .vmem, ⟨3, _⟩ => ⟨S384x1, .i32⟩
  | .local _ .vmem, ⟨4, _⟩ => ⟨S1x384, .i32⟩
  | .local _ .vmem, ⟨5, _⟩ => ⟨S1x1, .f32⟩
  | .local _ .vmem, ⟨6, _⟩ => ⟨S1x1, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem3_0 : DmaSem sig := 5
abbrev cc1_sem4_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S384x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![48], ![false]⟩

def k1_mult1 (i : grid1.Coords) : BitVec 32 :=
  let arg0 : BitVec 32 := BitVec.ofNat 32 (i 0).val
  let c8_i32 : BitVec 32 := 8#32
  let v0 : BitVec 32 := Scalar.muli arg0 c8_i32
  v0
def k1_off1 (i : grid1.Coords) : Fin 2 → Nat :=
  let arg0 : BitVec 32 := BitVec.ofNat 32 (i 0).val
  let c8_i32 : BitVec 32 := 8#32
  let v0 : BitVec 32 := Scalar.muli arg0 c8_i32
  let v1 : BitVec 32 := v0
  let v2 : Index := Scalar.indexCast v1
  let c0 : Index := 0#32
  ![v2.toNat, 0]
def k1_off2 (i : grid1.Coords) : Fin 2 → Nat :=
  let arg0 : BitVec 32 := BitVec.ofNat 32 (i 0).val
  let c8_i32 : BitVec 32 := 8#32
  let v0 : BitVec 32 := Scalar.muli arg0 c8_i32
  let v1 : BitVec 32 := v0
  let v5 : Index := Scalar.indexCast v1
  let c0_0 : Index := 0#32
  ![v5.toNat, 0]
@[reducible] def k1_t1_loop : Scf.Loop 32 :=
  let c0_i32 : BitVec 32 := 0#32
  let c3_i32 : BitVec 32 := 3#32
  let v22 : BitVec 32 := Scalar.addi c0_i32 c3_i32
  let c1_i32 : BitVec 32 := 1#32
  ⟨c0_i32, v22, c1_i32⟩
def k1_mult2 (k1_t1 : Fin k1_t1_loop.trips) : BitVec 32 :=
  let c0_i32 : BitVec 32 := 0#32
  let c1_i32 : BitVec 32 := 1#32
  let arg6 : BitVec 32 := Scf.iv c0_i32 c1_i32 k1_t1
  let c128_i32 : BitVec 32 := 128#32
  let v35 : BitVec 32 := Scalar.muli arg6 c128_i32
  v35
def k1_off3 (i : grid1.Coords) (k1_t1 : Fin k1_t1_loop.trips) : Fin 2 → Nat :=
  let arg0 : BitVec 32 := BitVec.ofNat 32 (i 0).val
  let c8_i32 : BitVec 32 := 8#32
  let v0 : BitVec 32 := Scalar.muli arg0 c8_i32
  let v1 : BitVec 32 := v0
  let v37 : Index := Scalar.indexCast v1
  let c0_i32 : BitVec 32 := 0#32
  let c1_i32 : BitVec 32 := 1#32
  let arg6 : BitVec 32 := Scf.iv c0_i32 c1_i32 k1_t1
  let c128_i32 : BitVec 32 := 128#32
  let v35 : BitVec 32 := Scalar.muli arg6 c128_i32
  let v36 : BitVec 32 := v35
  let v38 : Index := Scalar.indexCast v36
  ![v37.toNat, v38.toNat]
def k1_off4 (k1_t1 : Fin k1_t1_loop.trips) : Fin 2 → Nat :=
  let c0_16 : Index := 0#32
  let c0_i32 : BitVec 32 := 0#32
  let c1_i32 : BitVec 32 := 1#32
  let arg6 : BitVec 32 := Scf.iv c0_i32 c1_i32 k1_t1
  let c128_i32 : BitVec 32 := 128#32
  let v35 : BitVec 32 := Scalar.muli arg6 c128_i32
  let v36 : BitVec 32 := v35
  let v41 : Index := Scalar.indexCast v36
  ![0, v41.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S384x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S384x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S384_S384x1 : S384.ShapeCasts S384x1
  shapeCasts_S384_S1x384 : S384.ShapeCasts S1x384
  inb_S384x1024_S384x1024_0_0 : ∀ a, (![0, 0] : Fin 2 → Nat) a + S384x1024.size a ≤ S384x1024.size a
  h_S384x1024 : 0 < S384x1024.numel
  bitsLt_bf16_f32 : FTy.bits .bf16 < FTy.bits .f32
  transposes_S384x1024_p1_0_S1024x384 : S384x1024.Transposes [1, 0] S1024x384
  reduces_S384x1024_S384 : S384x1024.Reduces [1] S384
  transposes_S384x1_p1_0_S1x384 : S384x1.Transposes [1, 0] S1x384
  broadcasts_S384x1_S384x384 : S384x1.Broadcasts S384x384
  broadcasts_S1x384_S384x384 : S1x384.Broadcasts S384x384
  inb_S384x384_S384x384_0_0 : ∀ a, (![0, 0] : Fin 2 → Nat) a + S384x384.size a ≤ S384x384.size a
  h_S384x384 : 0 < S384x384.numel
  h_S8x384 : 0 < S8x384.numel
  shapeCasts_S8x384_S8x384 : S8x384.ShapeCasts S8x384
  h_S8x1 : 0 < S8x1.numel
  shapeCasts_S8x1_S8x1 : S8x1.ShapeCasts S8x1
  inb_S1x384_S1x384_0_0 : ∀ a, (![0, 0] : Fin 2 → Nat) a + S1x384.size a ≤ S1x384.size a
  h_S1x384 : 0 < S1x384.numel
  shapeCasts_S1x384_S1x384 : S1x384.ShapeCasts S1x384
  iota_S8x1_d0_w32 : S8x1.Iotas .tc 32 [0]
  broadcasts_S8x1_S8x384 : S8x1.Broadcasts S8x384
  broadcasts_S1x384_S8x384 : S1x384.Broadcasts S8x384
  natLt_1_32 : 1 < 32
  h_S8x128 : 0 < S8x128.numel
  shapeCasts_S8x128_S8x128 : S8x128.ShapeCasts S8x128
  h_S1x128 : 0 < S1x128.numel
  shapeCasts_S1x128_S1x128 : S1x128.ShapeCasts S1x128
  broadcasts_S8x1_S8x128 : S8x1.Broadcasts S8x128
  broadcasts_S1x128_S8x128 : S1x128.Broadcasts S8x128
  iota_S1x128_d1_w32 : S1x128.Iotas .tc 32 [1]
  shapeCasts_S8x128_S8x128x1 : S8x128.ShapeCasts S8x128x1
  shapeCasts_S8x384_S8x1x384 : S8x384.ShapeCasts S8x1x384
  broadcasts_S8x128x1_S8x128x384 : S8x128x1.Broadcasts S8x128x384
  broadcasts_S8x1x384_S8x128x384 : S8x1x384.Broadcasts S8x128x384
  reduces_S8x128x384_S8x128 : S8x128x384.Reduces [2] S8x128
  reduces_S8x128_S8 : S8x128.Reduces [1] S8
  shapeCasts_S8_S8x1 : S8.ShapeCasts S8x1
  reduces_S8x1_S1 : S8x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S384x1024_S1024x384_S384x384_1_0_0_1_n_n_wf : DotDims.WF S384x1024 S1024x384 S384x384 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S384x1024.size a ≤ S384x1024.size a
  hwx0_0 : ∀ i : grid0.Coords, EltTy.bits .f32 = 32 ∨ (Rect.block (s := S384x1024) S384x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x384.size a ≤ S384x384.size a
  hwx0_1 : ∀ i : grid0.Coords, EltTy.bits .f32 = 32 ∨ (Rect.block (s := S384x384) S384x384.size (cc0_transform_1 i) (hinb0_1 i)).WholeWords (EltTy.packing .f32)
  hrank1 : 0 < grid1.rank
  k1_mult1_dvd : ∀ i : grid1.Coords, 8 ∣ (k1_mult1 i).toNat
  k1_off1_inb : ∀ i : grid1.Coords, ∀ a, (k1_off1 i) a + S8x384.size a ≤ S384x384.size a
  k1_off2_inb : ∀ i : grid1.Coords, ∀ a, (k1_off2 i) a + S8x1.size a ≤ S384x1.size a
  k1_t1_ok : k1_t1_loop.OK
  k1_mult2_dvd : ∀ k1_t1 : Fin k1_t1_loop.trips, 128 ∣ (k1_mult2 k1_t1).toNat
  k1_off3_inb : ∀ (i : grid1.Coords) (k1_t1 : Fin k1_t1_loop.trips), ∀ a, (k1_off3 i k1_t1) a + S8x128.size a ≤ S384x384.size a
  k1_off4_inb : ∀ k1_t1 : Fin k1_t1_loop.trips, ∀ a, (k1_off4 k1_t1) a + S1x128.size a ≤ S1x384.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S384x384.size a ≤ S384x384.size a
  hwx1_0 : ∀ i : grid1.Coords, EltTy.bits .f32 = 32 ∨ (Rect.block (s := S384x384) S384x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S384x1.size a ≤ S384x1.size a
  hwx1_1 : ∀ i : grid1.Coords, EltTy.bits .i32 = 32 ∨ (Rect.block (s := S384x1) S384x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .i32 = 32 ∨ (Rect.block (s := S1x384) S1x384.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S384x1024_S1024x384_S384x384_1_0_0_1_n_n : DotDims S384x1024 S1024x384 S384x384 where
  lhsContracting := [1]
  rhsContracting := [0]
  lhsNonContracting := [0]
  rhsNonContracting := [1]
  lhsBatch := []
  rhsBatch := []
  wf := dot_S384x1024_S1024x384_S384x384_1_0_0_1_n_n_wf

abbrev win0_0 : Pipeline.Window sig grid0 :=
  Pipeline.Window.ofSpec (Memref.whole main_arg0) S384x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S384x384.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S384x384.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S384x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x1.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S384x1024 : Shape := ⟨2, ![384, 1024]⟩
abbrev S384 : Shape := ⟨1, ![384]⟩
abbrev S_ : Shape := ⟨0, ![]⟩
abbrev S384x1 : Shape := ⟨2, ![384, 1]⟩
abbrev S1x384 : Shape := ⟨2, ![1, 384]⟩
abbrev S384x384 : Shape := ⟨2, ![384, 384]⟩
abbrev S1024x384 : Shape := ⟨2, ![1024, 384]⟩
abbrev S384x384x1 : Shape := ⟨3, ![384, 384, 1]⟩
abbrev S384x1x384 : Shape := ⟨3, ![384, 1, 384]⟩
abbrev S384x384x384 : Shape := ⟨3, ![384, 384, 384]⟩

abbrev nBuf : Space → Nat
  | .hbm => 59
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S384, .i32⟩
  | .hbm, ⟨2, _⟩ => ⟨S384x1024, .f32⟩
  | .hbm, ⟨3, _⟩ => ⟨S_, .f32⟩
  | .hbm, ⟨4, _⟩ => ⟨S384, .f32⟩
  | .hbm, ⟨5, _⟩ => ⟨S384x1, .f32⟩
  | .hbm, ⟨6, _⟩ => ⟨S1x384, .f32⟩
  | .hbm, ⟨7, _⟩ => ⟨S384x384, .f32⟩
  | .hbm, ⟨8, _⟩ => ⟨S384x384, .f32⟩
  | .hbm, ⟨9, _⟩ => ⟨S384x384, .f32⟩
  | .hbm, ⟨10, _⟩ => ⟨S1024x384, .f32⟩
  | .hbm, ⟨11, _⟩ => ⟨S384x384, .f32⟩
  | .hbm, ⟨12, _⟩ => ⟨S_, .f32⟩
  | .hbm, ⟨13, _⟩ => ⟨S384x384, .f32⟩
  | .hbm, ⟨14, _⟩ => ⟨S384x384, .f32⟩
  | .hbm, ⟨15, _⟩ => ⟨S384x384, .f32⟩
  | .hbm, ⟨16, _⟩ => ⟨S384x1, .i32⟩
  | .hbm, ⟨17, _⟩ => ⟨S1x384, .i32⟩
  | .hbm, ⟨18, _⟩ => ⟨S384x384, .i32⟩
  | .hbm, ⟨19, _⟩ => ⟨S384x384, .i32⟩
  | .hbm, ⟨20, _⟩ => ⟨S384x384, .i1⟩
  | .hbm, ⟨21, _⟩ => ⟨S384, .i32⟩
  | .hbm, ⟨22, _⟩ => ⟨S384x1, .i32⟩
  | .hbm, ⟨23, _⟩ => ⟨S1x384, .i32⟩
  | .hbm, ⟨24, _⟩ => ⟨S384x384, .i32⟩
  | .hbm, ⟨25, _⟩ => ⟨S384x384, .i32⟩
  | .hbm, ⟨26, _⟩ => ⟨S384x384, .i1⟩
  | .hbm, ⟨27, _⟩ => ⟨S384x384, .i1⟩
  | .hbm, ⟨28, _⟩ => ⟨S384x384x1, .i1⟩
  | .hbm, ⟨29, _⟩ => ⟨S384x384, .i1⟩
  | .hbm, ⟨30, _⟩ => ⟨S384x1x384, .i1⟩
  | .hbm, ⟨31, _⟩ => ⟨S384x384x384, .i1⟩
  | .hbm, ⟨32, _⟩ => ⟨S384x384x384, .i1⟩
  | .hbm, ⟨33, _⟩ => ⟨S384x384x384, .i1⟩
  | .hbm, ⟨34, _⟩ => ⟨S384x384x1, .f32⟩
  | .hbm, ⟨35, _⟩ => ⟨S384x1x384, .f32⟩
  | .hbm, ⟨36, _⟩ => ⟨S384x384x384, .f32⟩
  | .hbm, ⟨37, _⟩ => ⟨S384x384x384, .f32⟩
  | .hbm, ⟨38, _⟩ => ⟨S384x384x384, .f32⟩
  | .hbm, ⟨39, _⟩ => ⟨S_, .f32⟩
  | .hbm, ⟨40, _⟩ => ⟨S384x384x384, .f32⟩
  | .hbm, ⟨41, _⟩ => ⟨S384x384x384, .f32⟩
  | .hbm, ⟨42, _⟩ => ⟨S_, .f32⟩
  | .hbm, ⟨43, _⟩ => ⟨S384x384x384, .f32⟩
  | .hbm, ⟨44, _⟩ => ⟨S384x384x384, .f32⟩
  | .hbm, ⟨45, _⟩ => ⟨S384x384x384, .i32⟩
  | .hbm, ⟨46, _⟩ => ⟨S_, .i32⟩
  | .hbm, ⟨47, _⟩ => ⟨S_, .i32⟩
  | .hbm, ⟨48, _⟩ => ⟨S_, .f32⟩
  | .hbm, ⟨49, _⟩ => ⟨S384x384x384, .f32⟩
  | .hbm, ⟨50, _⟩ => ⟨S384x384x384, .f32⟩
  | .hbm, ⟨51, _⟩ => ⟨S_, .f32⟩
  | .hbm, ⟨52, _⟩ => ⟨S_, .f32⟩
  | .hbm, ⟨53, _⟩ => ⟨S_, .i32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_call0_cst : Ref sig .tc := ⟨.hbm, 42, rfl⟩
abbrev main_call0_v0 : Ref sig .tc := ⟨.hbm, 43, rfl⟩
abbrev main_v37 : Ref sig .tc := ⟨.hbm, 44, rfl⟩
abbrev main_v38 : Ref sig .tc := ⟨.hbm, 45, rfl⟩
abbrev main_c : Ref sig .tc := ⟨.hbm, 46, rfl⟩
abbrev main_v39 : Ref sig .tc := ⟨.hbm, 47, rfl⟩
abbrev main_cst_2 : Ref sig .tc := ⟨.hbm, 48, rfl⟩
abbrev main_call1_v0 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_c_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  reducesTo_S384x1024_S384_d1 : S384x1024.ReducesTo [1] S384
  h_S_ : 0 < S_.numel
  bcast_S384_S384x1_0 : S384.BroadcastsInDim S384x1 (![0] : Fin 1 → Fin S384x1.rank)
  bcast_S384_S1x384_1 : S384.BroadcastsInDim S1x384 (![1] : Fin 1 → Fin S1x384.rank)
  bcast_S384x1_S384x384_0_1 : S384x1.BroadcastsInDim S384x384 (![0, 1] : Fin 2 → Fin S384x384.rank)
  bcast_S1x384_S384x384_0_1 : S1x384.BroadcastsInDim S384x384 (![0, 1] : Fin 2 → Fin S384x384.rank)
  transposes_S384x1024_S1024x384_1_0 : S384x1024.Transposes [1, 0] S1024x384
  bcast_S_S384x384 : S_.BroadcastsInDim S384x384 (![] : Fin 0 → Fin S384x384.rank)
  bcast_S384x384_S384x384x1_0_1 : S384x384.BroadcastsInDim S384x384x1 (![0, 1] : Fin 2 → Fin S384x384x1.rank)
  bcast_S384x384_S384x1x384_0_2 : S384x384.BroadcastsInDim S384x1x384 (![0, 2] : Fin 2 → Fin S384x1x384.rank)
  bcast_S384x384x1_S384x384x384_0_1_2 : S384x384x1.BroadcastsInDim S384x384x384 (![0, 1, 2] : Fin 3 → Fin S384x384x384.rank)
  bcast_S384x1x384_S384x384x384_0_1_2 : S384x1x384.BroadcastsInDim S384x384x384 (![0, 1, 2] : Fin 3 → Fin S384x384x384.rank)
  bcast_S_S384x384x384 : S_.BroadcastsInDim S384x384x384 (![] : Fin 0 → Fin S384x384x384.rank)
  natLt_1_32 : 1 < 32
  reducesTo_S384x384x384_S_d0_1_2 : S384x384x384.ReducesTo [0, 1, 2] S_
  dot_S384x1024_S1024x384_S384x384_1_0_0_1_n_n_wf : DotDims.WF S384x1024 S1024x384 S384x384 [1] [0] [0] [1] [] []

variable [Facts₀]

def dot_S384x1024_S1024x384_S384x384_1_0_0_1_n_n : DotDims S384x1024 S1024x384 S384x384 where
  lhsContracting := [1]
  rhsContracting := [0]
  lhsNonContracting := [0]
  rhsNonContracting := [1]
  lhsBatch := []
  rhsBatch := []
  wf := dot_S384x1024_S1024x384_S384x384_1_0_0_1_n_n_wf

class Facts : Prop extends Facts₀ where

variable [Facts]
-- ==== Proof.Body.lean ====
/-
  What one grid point of the triplet kernel leaves in its two [1,1] accumulators, read off the pieces its run found.

  The body's counted loop carries a pair (running total, running count) through three trips; trip k adds to the pair the
  contribution of positive tile k, computed from the 8 x 128 block of distances and the 128 labels it loads. After the loop
  the first grid point stores zeros in both accumulators and then adds the pair; every later point adds the pair to what the
  point before left.
-/
import proofs.«111588_j85598698209924_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.ShloMosaic.Tactic Idealize.SL.Sem
open Cert.KernelIdeal Cert.KernelIdeal.Gen

namespace Cert.KernelIdeal.PointValue

variable {F : FTy → Type} [FloatOps F]

theorem hz2 : (![0, 0] : Fin 2 → Nat) = fun _ => 0 := funext fun a => by fin_cases a <;> rfl

/-- One trip of the loop, as a function of the carried pair: the first component by the total's payload of the loaded
    distance block and labels, the second by the count's payload added to it. -/
theorem trip_eq (𝒱 : Variants) (c : Dev nD) (bd : Option 𝒱.V) (i : grid1.Coords) (arg1 : Memref sig .tc .vmem S384x384 .f32) (harg1 : arg1.IsWhole) (arg2 : Memref sig .tc .vmem S384x1 .i32) (harg2 : arg2.IsWhole) (arg3 : Memref sig .tc .vmem S1x384 .i32) (harg3 : arg3.IsWhole) (arg4 : Memref sig .tc .vmem S1x1 .f32) (harg4 : arg4.IsWhole) (arg5 : Memref sig .tc .vmem S1x1 .f32) (harg5 : arg5.IsWhole) (v1 : BitVec 32) (v3 : Vec F S8x384 .f32) (v6 : Vec F S8x1 .i32) (v8 : Vec F S1x384 .i32) (X_arg1 : BufTy.Contents (Elt F) arg1.view.ty) (X_arg3 : BufTy.Contents (Elt F) arg3.view.ty) (k : Fin k1_t1_loop.trips) (acc : FVec F S1x1 .f32 × FVec F S1x1 .f32) :
    tripR_k1_t1 (F := F) 𝒱 c bd i arg1 harg1 arg2 harg2 arg3 harg3 arg4 harg4 arg5 harg5 v1 v3 v6 v8 X_arg1 X_arg3 k acc
      = (k1_pay3 (k1_pay4 v3) (k1_pay5 v6) (k1_pay6 i) (k1_pay7 v6 v8) 0#32 1#32 k acc.1
            (View.readAt (Elt F) arg1.view (Rect.unit (s := S384x384) (k1_off3 i k) S8x128.size (k1_off3_inb i k)).toLoadRect X_arg1)
            (View.readAt (Elt F) arg3.view (Rect.unit (s := S1x384) (k1_off4 k) S1x128.size (k1_off4_inb k)).toLoadRect X_arg3),
         k1_pay10 acc.2 (k1_pay2 (k1_pay5 v6) (k1_pay6 i) (k1_pay7 v6 v8) 0#32 1#32 k
            (View.readAt (Elt F) arg3.view (Rect.unit (s := S1x384) (k1_off4 k) S1x128.size (k1_off4_inb k)).toLoadRect X_arg3))) := by
  unfold tripR_k1_t1 trip_k1_t1
  rfl

/-! ## The offsets the body computes, decided over the grid and the trips -/

theorem coords0 : ∀ t : Fin grid1.N, ((grid1.coords t) 0).val = t.val := by decide +kernel
theorem off1_eq : ∀ t : Fin grid1.N, k1_off1 (grid1.coords t) = ![8 * t.val, 0] := by decide +kernel
theorem off2_eq : ∀ t : Fin grid1.N, k1_off2 (grid1.coords t) = ![8 * t.val, 0] := by decide +kernel
theorem off3_eq : ∀ (t : Fin grid1.N) (k : Fin k1_t1_loop.trips), k1_off3 (grid1.coords t) k = ![8 * t.val, 128 * k.val] := by decide +kernel
theorem off4_eq : ∀ k : Fin k1_t1_loop.trips, k1_off4 k = ![0, 128 * k.val] := by decide +kernel
theorem trips_eq : k1_t1_loop.trips = 3 := by decide

/-! ## What the body's loads read of whole staging buffers holding the three input arrays -/

open Idealize.ShloMosaic.ValueIdx

/-- The 8 x 384 block of rows of anchor tile `t`. -/
theorem rd_rows (a1 : Memref sig .tc .vmem S384x384 .f32) (h1 : a1.IsWhole) (x0 : Vec F S384x384 .f32) (t : Fin grid1.N)
    (a : Fin 8) (n : Fin 384) (r : Fin 384) (hr : r.val = 8 * t.val + a.val) :
    View.readAt (Elt F) a1.view (Rect.unit (s := S384x384) (k1_off1 (grid1.coords t)) S8x384.size (k1_off1_inb (grid1.coords t))).toLoadRect (h1.unread x0) (ix2 a n)
      = x0 (ix2 r n) := by
  rw [View.readAt_eq_ld, h1.read_unread]
  show x0 _ = x0 _
  refine congrArg x0 (funext fun d => Fin.ext ?_)
  match d with
  | ⟨0, _⟩ => show k1_off1 (grid1.coords t) 0 + 1 * a.val = r.val; rw [off1_eq t, hr]; show 8 * t.val + 1 * a.val = _; omega
  | ⟨1, _⟩ => show k1_off1 (grid1.coords t) 1 + 1 * n.val = n.val; rw [off1_eq t]; show 0 + 1 * n.val = _; omega

/-- The 8 labels of anchor tile `t`. -/
theorem rd_labs (a2 : Memref sig .tc .vmem S384x1 .i32) (h2 : a2.IsWhole) (x1 : Vec F S384x1 .i32) (t : Fin grid1.N)
    (a : Fin 8) (r : Fin 384) (hr : r.val = 8 * t.val + a.val) :
    View.readAt (Elt F) a2.view (Rect.unit (s := S384x1) (k1_off2 (grid1.coords t)) S8x1.size (k1_off2_inb (grid1.coords t))).toLoadRect (h2.unread x1) (ix2 a (0 : Fin 1))
      = x1 (ix2 r (0 : Fin 1)) := by
  rw [View.readAt_eq_ld, h2.read_unread]
  show x1 _ = x1 _
  refine congrArg x1 (funext fun d => Fin.ext ?_)
  match d with
  | ⟨0, _⟩ => show k1_off2 (grid1.coords t) 0 + 1 * a.val = r.val; rw [off2_eq t, hr]; show 8 * t.val + 1 * a.val = _; omega
  | ⟨1, _⟩ => show k1_off2 (grid1.coords t) 1 + 1 * 0 = 0; rw [off2_eq t]; rfl

/-- The whole row of 384 labels. -/
theorem rd_row (a3 : Memref sig .tc .vmem S1x384 .i32) (h3 : a3.IsWhole) (x2 : Vec F S1x384 .i32) :
    View.readAt (Elt F) a3.view (Rect.unit (s := S1x384) ![0, 0] S1x384.size inb_S1x384_S1x384_0_0).toLoadRect (h3.unread x2) = x2 := by
  rw [View.readAt_eq_ld, h3.read_unread, View.ld_unit_zero (S := S1x384) hz2]

/-- The 8 x 128 block of distances from anchor tile `t` to positive tile `k`. -/
theorem rd_block (a1 : Memref sig .tc .vmem S384x384 .f32) (h1 : a1.IsWhole) (x0 : Vec F S384x384 .f32) (t : Fin grid1.N) (k : Fin k1_t1_loop.trips)
    (a : Fin 8) (p : Fin 128) (r q : Fin 384) (hr : r.val = 8 * t.val + a.val) (hq : q.val = 128 * k.val + p.val) :
    View.readAt (Elt F) a1.view (Rect.unit (s := S384x384) (k1_off3 (grid1.coords t) k) S8x128.size (k1_off3_inb (grid1.coords t) k)).toLoadRect (h1.unread x0) (ix2 a p)
      = x0 (ix2 r q) := by
  rw [View.readAt_eq_ld, h1.read_unread]
  show x0 _ = x0 _
  refine congrArg x0 (funext fun d => Fin.ext ?_)
  match d with
  | ⟨0, _⟩ => show k1_off3 (grid1.coords t) k 0 + 1 * a.val = r.val; rw [off3_eq t k, hr]; show 8 * t.val + 1 * a.val = _; omega
  | ⟨1, _⟩ => show k1_off3 (grid1.coords t) k 1 + 1 * p.val = q.val; rw [off3_eq t k, hq]; show 128 * k.val + 1 * p.val = _; omega

/-- The 128 labels of positive tile `k`. -/
theorem rd_cols (a3 : Memref sig .tc .vmem S1x384 .i32) (h3 : a3.IsWhole) (x2 : Vec F S1x384 .i32) (k : Fin k1_t1_loop.trips)
    (p : Fin 128) (q : Fin 384) (hq : q.val = 128 * k.val + p.val) :
    View.readAt (Elt F) a3.view (Rect.unit (s := S1x384) (k1_off4 k) S1x128.size (k1_off4_inb k)).toLoadRect (h3.unread x2) (ix2 (0 : Fin 1) p)
      = x2 (ix2 (0 : Fin 1) q) := by
  rw [View.readAt_eq_ld, h3.read_unread]
  show x2 _ = x2 _
  refine congrArg x2 (funext fun d => Fin.ext ?_)
  match d with
  | ⟨0, _⟩ => show k1_off4 k 0 + 1 * 0 = 0; rw [off4_eq k]; rfl
  | ⟨1, _⟩ => show k1_off4 k 1 + 1 * p.val = q.val; rw [off4_eq k, hq]; show 128 * k.val + 1 * p.val = _; omega

end Cert.KernelIdeal.PointValue

end
-- ==== Proof.Spec.lean ====
/-
  The mathematics both programs compute, stated once over plain index types.

  From an array `x` of 384 rows of 1024 extended reals: the squared pairwise distances
  `dist x (i, j) = (|x_i|² + |x_j|²) - 2·⟨x_i, x_j⟩` (the Gram-matrix form). From a distance array `D` and 384 integer
  labels: a triplet (a, p, n) is VALID when a and p carry the same label, a comes before p, and n carries another label; its
  hinge loss is `max (D(a,p) - D(a,n) + 1) 0`. `total` is the sum of the hinge losses of the valid triplets, `count` their
  number, and the two results are the mean `total / count` (0 when there is no valid triplet) and the count as a 32-bit word.

  The anchor axis is also cut into 48 tiles of 8 rows and the positive axis into 3 tiles of 128 columns: `tileTotal` and
  `tileCount` are the contributions of one (anchor tile, positive tile) pair, over every negative.
-/
import Idealize.ShloMosaic.PureOps.Ideal
import Idealize.ShloMosaic.Lib.ValueIdx

noncomputable section

open scoped BigOperators
open Idealize.ShloMosaic Idealize.ShloMosaic.ValueIdx

namespace Cert.Triplet

/-- The f32 words the programs spell: 0.0, 1.0, 2.0 (never evaluated except where a law needs their value). -/
abbrev w0 : EReal := Ideal.ofBits .f32 0x00000000#32
abbrev w1 : EReal := Ideal.ofBits .f32 0x3F800000#32
abbrev w2 : EReal := Ideal.ofBits .f32 0x40000000#32

/-- The squared pairwise distance of rows `j 0` and `j 1` of `x`, in the Gram-matrix form. -/
def dist (x : (⟨2, ![384, 1024]⟩ : Shape).Idx → EReal) : (⟨2, ![384, 384]⟩ : Shape).Idx → EReal := fun j =>
  ((∑ k : Fin 1024, x (ix2 (j 0) k) * x (ix2 (j 0) k)) + (∑ k : Fin 1024, x (ix2 (j 1) k) * x (ix2 (j 1) k)))
    - w2 * ∑ k : Fin 1024, x (ix2 (j 0) k) * x (ix2 (j 1) k)

/-- (a, p, n) is a valid triplet: a and p share a label, a is before p, n has another label. -/
def valid (lab : (⟨1, ![384]⟩ : Shape).Idx → BitVec 32) (a p n : Fin 384) : Prop :=
  (lab (ix1 a) = lab (ix1 p) ∧ a.val < p.val) ∧ ¬ lab (ix1 a) = lab (ix1 n)

instance (lab : (⟨1, ![384]⟩ : Shape).Idx → BitVec 32) (a p n : Fin 384) : Decidable (valid lab a p n) := by
  unfold valid; infer_instance

/-- The hinge loss of a triplet. -/
def hinge (D : (⟨2, ![384, 384]⟩ : Shape).Idx → EReal) (a p n : Fin 384) : EReal :=
  max ((D (ix2 a p) - D (ix2 a n)) + w1) w0

/-- The sum of the hinge losses of the valid triplets. -/
def total (D : (⟨2, ![384, 384]⟩ : Shape).Idx → EReal) (lab : (⟨1, ![384]⟩ : Shape).Idx → BitVec 32) : EReal :=
  ∑ a : Fin 384, ∑ p : Fin 384, ∑ n : Fin 384, if valid lab a p n then hinge D a p n else 0

/-- The number of valid triplets. -/
def count (lab : (⟨1, ![384]⟩ : Shape).Idx → BitVec 32) : ℕ :=
  ∑ a : Fin 384, ∑ p : Fin 384, ∑ n : Fin 384, if valid lab a p n then 1 else 0

/-- The first result: the mean hinge loss over the valid triplets, 0 when there is none. -/
def meanOut (D : (⟨2, ![384, 384]⟩ : Shape).Idx → EReal) (lab : (⟨1, ![384]⟩ : Shape).Idx → BitVec 32) :
    (⟨0, ![]⟩ : Shape).Idx → EReal := fun _ =>
  Scalar.select (FloatOps.cmpf (F := Ideal) (φ := .f32) .ogt ((count lab : ℕ) : EReal) w0)
    (FloatOps.hostDivf (F := Ideal) (φ := .f32) (total D lab) ((count lab : ℕ) : EReal)) w0

/-- The second result: the number of valid triplets as a 32-bit word. -/
def countOut (lab : (⟨1, ![384]⟩ : Shape).Idx → BitVec 32) : (⟨0, ![]⟩ : Shape).Idx → BitVec 32 := fun _ =>
  BitVec.ofNat 32 (count lab)

/-- Row `a` of anchor tile `t`, and column `p` of positive tile `c`. -/
def row (t : Fin 48) (a : Fin 8) : Fin 384 := ⟨8 * t.val + a.val, by omega⟩
def col (c : Fin 3) (p : Fin 128) : Fin 384 := ⟨128 * c.val + p.val, by omega⟩

/-- The hinge losses of the valid triplets whose anchor lies in tile `t` and whose positive lies in tile `c`. -/
def tileTotal (D : (⟨2, ![384, 384]⟩ : Shape).Idx → EReal) (lab : (⟨1, ![384]⟩ : Shape).Idx → BitVec 32)
    (t : Fin 48) (c : Fin 3) : EReal :=
  ∑ a : Fin 8, ∑ p : Fin 128, ∑ n : Fin 384, if valid lab (row t a) (col c p) n then hinge D (row t a) (col c p) n else 0

/-- Their number, as an extended real. -/
def tileCount (lab : (⟨1, ![384]⟩ : Shape).Idx → BitVec 32) (t : Fin 48) (c : Fin 3) : EReal :=
  ∑ a : Fin 8, ∑ p : Fin 128, ∑ n : Fin 384, if valid lab (row t a) (col c p) n then (1 : EReal) else 0

end Cert.Triplet

end
-- ==== Proof.TripValue.lean ====
/-
  One trip of the triplet kernel's loop, as values. At index (a, p, n) of the [8, 128, 384] block the kernel's mask is
  1 when (row a of the anchor tile, column p of the positive tile, n) is a valid triplet and 0 otherwise: the product of
  "same label" and "anchor before positive", each a one-bit comparison widened to a word and converted, with "another
  label", which is 1 minus such a conversion. The three nested sums over n, p and a then give the tile's count, and with
  the mask times the hinge loss the tile's total.
-/
import proofs.«111588_j85598698209924_1_alg».proof.Proof.Gen.KernelIdeal.Skeleton
import proofs.«111588_j85598698209924_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.Lib.Affine
import Idealize.ShloMosaic.PureOps.Ideal.Laws

noncomputable section
open scoped BigOperators
open Idealize.ShloMosaic Idealize.ShloMosaic.ValueIdx Cert.KernelIdeal Cert.KernelIdeal.Gen

namespace Cert.Triplet
namespace TripValue

/-! ## Layout operations of this kernel's shapes, read at an index given by coordinates -/

section Layout
variable {α : Type}

/-- A shape cast between equal shapes reads the same index. -/
theorem shapeCast_same_apply {s : Shape} (x : s.Idx → α) (h : s.ShapeCasts s) (j : s.Idx) : shapeCast s x h j = x j :=
  shapeCast_apply x h j j rfl

/-- An `[a, 1]` column broadcast to `[a, b]` reads, at `(i, q)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (q : Fin b) : broadcastTo ⟨2, ![a, b]⟩ v h (ix2 i q) = v (ix2 i (0 : Fin 1)) := by
  refine broadcastTo_apply v h (ix2 i q) (ix2 i (0 : Fin 1)) fun ax => ?_
  match ax with
  | ⟨0, _⟩ =>
    show i.val = if a = 1 then 0 else i.val
    split
    · have := i.isLt; omega
    · rfl
  | ⟨1, _⟩ => rfl

/-- An `[a, b]` array cast to `[a, b, 1]` reads, at `(i, q, u)`, the operand at `(i, q)`. -/
theorem shapeCast_ab_ab1_apply {a b : ℕ} (x : (⟨2, ![a, b]⟩ : Shape).Idx → α)
    (h : (⟨2, ![a, b]⟩ : Shape).ShapeCasts ⟨3, ![a, b, 1]⟩) (i : Fin a) (q : Fin b) (u : Fin 1) :
    shapeCast ⟨3, ![a, b, 1]⟩ x h (ix3 i q u) = x (ix2 i q) :=
  shapeCast_apply x h _ _ (by
    have hu : u.val = 0 := by omega
    rw [Shape.rowMajor_val_three, Shape.rowMajor_val_two]
    show i.val * b + q.val = (i.val * b + q.val) * 1 + u.val
    rw [hu, Nat.mul_one, Nat.add_zero])

/-- An `[a, c]` array cast to `[a, 1, c]` reads, at `(i, u, m)`, the operand at `(i, m)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (m : Fin c) :
    shapeCast ⟨3, ![a, 1, c]⟩ x h (ix3 i u m) = x (ix2 i m) :=
  shapeCast_apply x h _ _ (by
    have hu : u.val = 0 := by omega
    rw [Shape.rowMajor_val_three, Shape.rowMajor_val_two]
    show i.val * c + m.val = (i.val * 1 + u.val) * c + m.val
    rw [hu, Nat.mul_one, Nat.add_zero])

/-- An `[a, b, 1]` array broadcast to `[a, b, c]` reads, at `(i, q, m)`, the operand at `(i, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (q : Fin b) (m : Fin c) :
    broadcastTo ⟨3, ![a, b, c]⟩ v h (ix3 i q m) = v (ix3 i q (0 : Fin 1)) := by
  refine broadcastTo_apply v h (ix3 i q m) (ix3 i q (0 : Fin 1)) fun ax => ?_
  match ax with
  | ⟨0, _⟩ =>
    show i.val = if a = 1 then 0 else i.val
    split
    · have := i.isLt; omega
    · rfl
  | ⟨1, _⟩ =>
    show q.val = if b = 1 then 0 else q.val
    split
    · have := q.isLt; omega
    · rfl
  | ⟨2, _⟩ => rfl

/-- An `[a, 1, c]` array broadcast to `[a, b, c]` reads, at `(i, q, m)`, the operand at `(i, 0, m)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (q : Fin b) (m : Fin c) :
    broadcastTo ⟨3, ![a, b, c]⟩ v h (ix3 i q m) = v (ix3 i (0 : Fin 1) m) := by
  refine broadcastTo_apply v h (ix3 i q m) (ix3 i (0 : Fin 1) m) fun ax => ?_
  match ax with
  | ⟨0, _⟩ =>
    show i.val = if a = 1 then 0 else i.val
    split
    · have := i.isLt; omega
    · rfl
  | ⟨1, _⟩ => rfl
  | ⟨2, _⟩ =>
    show m.val = if c = 1 then 0 else m.val
    split
    · have := m.isLt; omega
    · rfl

end Layout

/-! ## Words: a widened bit as a real, and the two index words of a tile -/

/-- A one-bit word widened to 32 bits and converted signed is 1 for the bit 1 and 0 for the bit 0. -/
theorem sitofp_bit (b : BitVec 1) :
    (FloatOps.sitofp (F := Ideal) .f32 (b.setWidth 32) : EReal) = if b = 1#1 then 1 else 0 := by
  show ((((b.setWidth 32).toInt : ℤ) : ℝ) : EReal) = _
  rw [toInt_setWidth_bit]
  rcases BitVec.eq_zero_or_eq_one b with rfl | rfl
  · simp
  · simp

/-- The word of "two words are equal", widened and converted: 1 when they are equal, 0 otherwise. -/
theorem sitofp_cmpi_eq (x y : BitVec 32) :
    (FloatOps.sitofp (F := Ideal) .f32 ((IntOp.cmpi .eq x y).setWidth 32) : EReal) = if x = y then 1 else 0 := by
  rw [sitofp_bit]
  by_cases h : x = y
  · rw [if_pos (IntOp.cmpi_eq.mpr h), if_pos h]
  · rw [if_neg (fun hh => h (IntOp.cmpi_eq.mp hh)), if_neg h]

/-- The word of a signed "less than", widened and converted: 1 when it holds of the words read signed, 0 otherwise. -/
theorem sitofp_cmpi_slt (x y : BitVec 32) :
    (FloatOps.sitofp (F := Ideal) .f32 ((IntOp.cmpi .slt x y).setWidth 32) : EReal) = if x.toInt < y.toInt then 1 else 0 := by
  rw [sitofp_bit]
  by_cases h : x.toInt < y.toInt
  · rw [if_pos (IntOp.cmpi_slt.mpr h), if_pos h]
  · rw [if_neg (fun hh => h (IntOp.cmpi_slt.mp hh)), if_neg h]

/-- The anchor's index word, the iota's `a` plus 8 times the grid coordinate, read signed is the row number `8·t + a`. -/
theorem rowWord_toInt (i0 : ℕ) (t : Fin 48) (a : Fin 8) (ht : i0 = t.val) :
    (IntOp.addi (BitVec.ofNat 32 a.val) (Scalar.muli (BitVec.ofNat 32 i0) 8#32)).toInt = ((row t a).val : ℤ) := by
  have ht' := t.isLt
  have ha' := a.isLt
  have h1 : Affine.IsInt (BitVec.ofNat 32 i0) (i0 : ℤ) := Affine.ofNat i0 ⟨rfl, by omega⟩
  have h8 : Affine.IsInt (BitVec.ofNat 32 8) 8 := Affine.ofNat 8 ⟨rfl, by omega⟩
  have h2 : Affine.IsInt (Scalar.muli (BitVec.ofNat 32 i0) (BitVec.ofNat 32 8)) ((i0 : ℤ) * 8) := Affine.muli h1 h8 ⟨rfl, by omega, by omega⟩
  have h3 : Affine.IsInt (Scalar.addi (BitVec.ofNat 32 a.val) (Scalar.muli (BitVec.ofNat 32 i0) (BitVec.ofNat 32 8))) ((a.val : ℤ) + (i0 : ℤ) * 8) :=
    Affine.addi (Affine.ofNat a.val ⟨rfl, by omega⟩) h2 ⟨rfl, by omega, by omega⟩
  unfold Affine.IsInt at h3
  show (Scalar.addi (BitVec.ofNat 32 a.val) (Scalar.muli (BitVec.ofNat 32 i0) (BitVec.ofNat 32 8))).toInt = _
  rw [h3]
  show (a.val : ℤ) + (i0 : ℤ) * 8 = ((8 * t.val + a.val : ℕ) : ℤ)
  omega

/-- The positive's index word, the iota's `p` plus 128 times the loop's induction variable at trip `k`, read signed is the
    column number `128·c + p`. -/
theorem colWord_toInt (k : ℕ) (c : Fin 3) (p : Fin 128) (hc : k = c.val) :
    (IntOp.addi (BitVec.ofNat 32 p.val) (Scalar.muli (Scf.iv 0#32 1#32 k) 128#32)).toInt = ((col c p).val : ℤ) := by
  have hc' := c.isLt
  have hp' := p.isLt
  have h0 : Affine.IsInt (BitVec.ofNat 32 0) 0 := Affine.ofNat 0 ⟨rfl, by omega⟩
  have h1 : Affine.IsInt (BitVec.ofNat 32 1) 1 := Affine.ofNat 1 ⟨rfl, by omega⟩
  have hk : Affine.IsInt (Scf.iv (BitVec.ofNat 32 0) (BitVec.ofNat 32 1) k) (k : ℤ) := Affine.iv h0 h1 k ⟨by omega, by omega, by omega⟩
  have h128 : Affine.IsInt (BitVec.ofNat 32 128) 128 := Affine.ofNat 128 ⟨rfl, by omega⟩
  have h2 : Affine.IsInt (Scalar.muli (Scf.iv (BitVec.ofNat 32 0) (BitVec.ofNat 32 1) k) (BitVec.ofNat 32 128)) ((k : ℤ) * 128) :=
    Affine.muli hk h128 ⟨rfl, by omega, by omega⟩
  have h3 : Affine.IsInt (Scalar.addi (BitVec.ofNat 32 p.val) (Scalar.muli (Scf.iv (BitVec.ofNat 32 0) (BitVec.ofNat 32 1) k) (BitVec.ofNat 32 128)))
      ((p.val : ℤ) + (k : ℤ) * 128) :=
    Affine.addi (Affine.ofNat p.val ⟨rfl, by omega⟩) h2 ⟨rfl, by omega, by omega⟩
  unfold Affine.IsInt at h3
  show (Scalar.addi (BitVec.ofNat 32 p.val) (Scalar.muli (Scf.iv (BitVec.ofNat 32 0) (BitVec.ofNat 32 1) k) (BitVec.ofNat 32 128))).toInt = _
  rw [h3]
  show (p.val : ℤ) + (k : ℤ) * 128 = ((128 * c.val + p.val : ℕ) : ℤ)
  omega

/-! ## The payloads read at an index -/

section Payloads
variable (i : grid1.Coords) (k : Fin k1_t1_loop.trips) (t : Fin 48) (c : Fin 3)
  (lab : (⟨1, ![384]⟩ : Shape).Idx → BitVec 32)
  (v6 : Vec Ideal S8x1 .i32) (v8 : Vec Ideal S1x384 .i32) (v42 : Vec Ideal S1x128 .i32)

/-- The anchor tile's labels as the kernel reads them. -/
theorem pay5_apply (a : Fin 8) : k1_pay5 (F := Ideal) v6 (ix2 a (0 : Fin 1)) = v6 (ix2 a (0 : Fin 1)) :=
  shapeCast_same_apply _ _ _

/-- The anchor tile's index words. -/
theorem pay6_apply (a : Fin 8) :
    k1_pay6 i (ix2 a (0 : Fin 1)) = IntOp.addi (BitVec.ofNat 32 a.val) (Scalar.muli (BitVec.ofNat 32 (i 0).val) 8#32) := by
  show IntOp.addi (iota .tc S8x1 32 [0] iota_S8x1_d0_w32 (ix2 a (0 : Fin 1))) _ = _
  rw [iota_single_apply]
  rfl

/-- "The negative has another label than the anchor", as the real 1 or 0. -/
theorem pay7_apply (h6 : ∀ a : Fin 8, v6 (ix2 a (0 : Fin 1)) = lab (ix1 (row t a)))
    (h8 : ∀ n : Fin 384, v8 (ix2 (0 : Fin 1) n) = lab (ix1 n)) (a : Fin 8) (n : Fin 384) :
    k1_pay7 (F := Ideal) v6 v8 (ix2 a n) = w1 - (if lab (ix1 (row t a)) = lab (ix1 n) then (1 : EReal) else 0) := by
  unfold k1_pay7
  rw [subf_apply, sitofp_apply, extui_apply]
  show w1 - FloatOps.sitofp (F := Ideal) .f32 ((IntOp.cmpi .eq (broadcastTo S8x384 (k1_pay5 v6) broadcasts_S8x1_S8x384 (ix2 a n))
      (broadcastTo S8x384 (shapeCast S1x384 v8 shapeCasts_S1x384_S1x384) broadcasts_S1x384_S8x384 (ix2 a n))).setWidth 32) = _
  rw [sitofp_cmpi_eq, broadcastTo_a1_ab_apply, broadcastTo_1b_ab_apply, shapeCast_same_apply, pay5_apply, h6, h8]

end Payloads

section Mask
variable (i : grid1.Coords) (k : Fin k1_t1_loop.trips) (t : Fin 48) (c : Fin 3)
  (lab : (⟨1, ![384]⟩ : Shape).Idx → BitVec 32)
  (v6 : Vec Ideal S8x1 .i32) (v8 : Vec Ideal S1x384 .i32) (v42 : Vec Ideal S1x128 .i32)

/-- An integer comparison at an index compares the elements. -/
theorem cmpi_apply {s : Shape} {w : ℕ} (p : CmpIPredicate) (x y : IVec s w) (j : s.Idx) :
    cmpi p x y j = IntOp.cmpi p (x j) (y j) := rfl

/-- The positive tile's index words: the iota along the columns plus the tile's first column. -/
theorem colIdx_apply (w36 : BitVec 32) (p : Fin 128) :
    addi (iota .tc S1x128 32 [1] iota_S1x128_d1_w32) (broadcast S1x128 w36) (ix2 (0 : Fin 1) p)
      = IntOp.addi (BitVec.ofNat 32 p.val) w36 := by
  show IntOp.addi (iota .tc S1x128 32 [1] iota_S1x128_d1_w32 (ix2 (0 : Fin 1) p)) _ = _
  rw [iota_single_apply]
  rfl

/-- In the extended reals `1 - 1 = 0`. -/
theorem ereal_one_sub_one : (1 : EReal) - 1 = 0 := by
  rw [← EReal.coe_one, ← EReal.coe_sub, sub_self, EReal.coe_zero]

/-- THE MASK at (a, p, n): 1 when (row a of the anchor tile, column p of the positive tile, n) is a valid triplet, 0 otherwise. -/
theorem mask_apply (ht : (i 0).val = t.val) (hc : k.val = c.val)
    (h6 : ∀ a : Fin 8, v6 (ix2 a (0 : Fin 1)) = lab (ix1 (row t a)))
    (h8 : ∀ n : Fin 384, v8 (ix2 (0 : Fin 1) n) = lab (ix1 n))
    (h42 : ∀ p : Fin 128, v42 (ix2 (0 : Fin 1) p) = lab (ix1 (col c p)))
    (a : Fin 8) (p : Fin 128) (n : Fin 384) :
    k1_pay1 (F := Ideal) (k1_pay5 v6) (k1_pay6 i) (k1_pay7 v6 v8) 0#32 1#32 k v42 (ix3 a p n)
      = if valid lab (row t a) (col c p) n then (1 : EReal) else 0 := by
  unfold k1_pay1
  rw [mulf_apply, broadcastTo_ab1_abc_apply, broadcastTo_a1c_abc_apply, shapeCast_ab_ab1_apply, shapeCast_ac_a1c_apply,
    pay7_apply t lab v6 v8 h6 h8, mulf_apply, sitofp_apply, sitofp_apply, extui_apply, extui_apply, cmpi_apply, cmpi_apply,
    sitofp_cmpi_eq, sitofp_cmpi_slt, broadcastTo_a1_ab_apply, broadcastTo_a1_ab_apply, broadcastTo_1b_ab_apply,
    broadcastTo_1b_ab_apply, shapeCast_same_apply, pay5_apply, pay6_apply, colIdx_apply, h6, h42,
    rowWord_toInt (i 0).val t a ht, colWord_toInt k.val c p hc, show w1 = (1 : EReal) from Ideal.ofBits_one_f32]
  have hv : valid lab (row t a) (col c p) n ↔
      (lab (ix1 (row t a)) = lab (ix1 (col c p)) ∧ (row t a).val < (col c p).val) ∧ ¬ lab (ix1 (row t a)) = lab (ix1 n) := Iff.rfl
  by_cases h1 : lab (ix1 (row t a)) = lab (ix1 (col c p))
  · by_cases h2 : ((row t a).val : ℤ) < ((col c p).val : ℤ)
    · by_cases h3 : lab (ix1 (row t a)) = lab (ix1 n)
      · rw [if_pos h1, if_pos h2, if_pos h3, if_neg (fun h => (hv.mp h).2 h3), ereal_one_sub_one, mul_zero]
      · rw [if_pos h1, if_pos h2, if_neg h3, if_pos (hv.mpr ⟨⟨h1, Int.ofNat_lt.mp h2⟩, h3⟩), sub_zero, mul_one, mul_one]
    · rw [if_pos h1, if_neg h2, if_neg (fun h => h2 (Int.ofNat_lt.mpr (hv.mp h).1.2)), mul_zero, zero_mul]
  · rw [if_neg h1, if_neg (fun h => h1 (hv.mp h).1.1), zero_mul, zero_mul]

end Mask

/-! ## The three nested sums -/

section Sums

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the negatives: the last axis of an [8, 128, 384] array. -/
theorem reduce_n (X : FVec Ideal S8x128x384 .f32) (h : S8x128x384.Reduces [2] S8x128) (hφ : FKind.Formats .f32)
    (hacc : (0x00000000#32 : BitVec 32) = FKind.add.neutral .f32 hφ) (a : Fin 8) (p : Fin 128) :
    multiReduction .add [2] S8x128 X 0x00000000#32 h hφ hacc (ix2 a p) = ∑ n : Fin 384, X (ix3 a p n) := by
  refine (Ideal.multiReduction_add_single X _ h hφ hacc (ix2 a p)).trans ?_
  show ∑ n : Fin 384, X (h.lift (ix2 a p) n) = ∑ n : Fin 384, X (ix3 a p n)
  refine Finset.sum_congr rfl fun n _ => congrArg X (funext fun d => ?_)
  match d with
  | ⟨0, _⟩ => exact Fin.ext rfl
  | ⟨1, _⟩ => exact Fin.ext rfl
  | ⟨2, _⟩ => exact Fin.ext rfl

/-- The sum over the positives: the last axis of an [8, 128] array. -/
theorem reduce_p (X : FVec Ideal S8x128 .f32) (h : S8x128.Reduces [1] S8) (hφ : FKind.Formats .f32)
    (hacc : (0x00000000#32 : BitVec 32) = FKind.add.neutral .f32 hφ) (a : Fin 8) :
    multiReduction .add [1] S8 X 0x00000000#32 h hφ hacc (ix1 a) = ∑ p : Fin 128, X (ix2 a p) := by
  refine (Ideal.multiReduction_add_single X _ h hφ hacc (ix1 a)).trans ?_
  show ∑ p : Fin 128, X (h.lift (ix1 a) p) = ∑ p : Fin 128, X (ix2 a p)
  refine Finset.sum_congr rfl fun p _ => congrArg X (funext fun d => ?_)
  match d with
  | ⟨0, _⟩ => exact Fin.ext rfl
  | ⟨1, _⟩ => exact Fin.ext rfl

/-- The sum over the anchors: the first axis of an [8, 1] array. -/
theorem reduce_a (X : FVec Ideal S8x1 .f32) (h : S8x1.Reduces [0] S1) (hφ : FKind.Formats .f32)
    (hacc : (0x00000000#32 : BitVec 32) = FKind.add.neutral .f32 hφ) (v : Fin 1) :
    multiReduction .add [0] S1 X 0x00000000#32 h hφ hacc (ix1 v) = ∑ a : Fin 8, X (ix2 a v) := by
  refine (Ideal.multiReduction_add_single X _ h hφ hacc (ix1 v)).trans ?_
  show ∑ a : Fin 8, X (h.lift (ix1 v) a) = ∑ a : Fin 8, X (ix2 a v)
  refine Finset.sum_congr rfl fun a _ => congrArg X (funext fun d => ?_)
  match d with
  | ⟨0, _⟩ => exact Fin.ext rfl
  | ⟨1, _⟩ => exact Fin.ext rfl

/-- The kernel's three reductions and two casts of an [8, 128, 384] array, read at the one index of the [1, 1] result: the
    triple sum over anchors, positives and negatives. -/
theorem tripleSum_apply (X : FVec Ideal S8x128x384 .f32)
    (h2 : S8x128x384.Reduces [2] S8x128) (h1 : S8x128.Reduces [1] S8) (h0 : S8x1.Reduces [0] S1)
    (c8 : S8.ShapeCasts S8x1) (c1 : S1.ShapeCasts S1x1)
    (hφ : FKind.Formats .f32) (hacc : (0x00000000#32 : BitVec 32) = FKind.add.neutral .f32 hφ) (j : S1x1.Idx) :
    shapeCast S1x1 (multiReduction .add [0] S1 (shapeCast S8x1 (multiReduction .add [1] S8
        (multiReduction .add [2] S8x128 X 0x00000000#32 h2 hφ hacc) 0x00000000#32 h1 hφ hacc) c8) 0x00000000#32 h0 hφ hacc) c1 j
      = ∑ a : Fin 8, ∑ p : Fin 128, ∑ n : Fin 384, X (ix3 a p n) := by
  obtain ⟨u, v, rfl⟩ : ∃ (u v : Fin 1), j = ix2 u v := ⟨j 0, j 1, eq_ix2 j⟩
  refine (shapeCast_a_1a_apply _ c1 u v).trans ?_
  refine (reduce_a _ h0 hφ hacc v).trans ?_
  refine Finset.sum_congr rfl fun a _ => ?_
  refine (shapeCast_a_a1_apply _ c8 a v).trans ?_
  refine (reduce_p _ h1 hφ hacc a).trans ?_
  refine Finset.sum_congr rfl fun p _ => ?_
  exact reduce_n X h2 hφ hacc a p

end Sums

end TripValue

open TripValue

/-! ## The two results of one trip -/

/-- One trip's count: the number of valid triplets of the (anchor tile, positive tile) pair, as an extended real. -/
theorem trip_count (i : grid1.Coords) (k : Fin k1_t1_loop.trips) (t : Fin 48) (c : Fin 3) (ht : (i 0).val = t.val) (hc : k.val = c.val)
    (lab : (⟨1, ![384]⟩ : Shape).Idx → BitVec 32)
    (v6 : Vec Ideal S8x1 .i32) (v8 : Vec Ideal S1x384 .i32) (v42 : Vec Ideal S1x128 .i32)
    (h6 : ∀ a : Fin 8, v6 (ix2 a (0 : Fin 1)) = lab (ix1 (row t a)))
    (h8 : ∀ n : Fin 384, v8 (ix2 (0 : Fin 1) n) = lab (ix1 n))
    (h42 : ∀ p : Fin 128, v42 (ix2 (0 : Fin 1) p) = lab (ix1 (col c p)))
    (j : S1x1.Idx) :
    k1_pay2 (F := Ideal) (k1_pay5 v6) (k1_pay6 i) (k1_pay7 v6 v8) 0#32 1#32 k v42 j = tileCount lab t c := by
  unfold k1_pay2
  refine (tripleSum_apply _ _ _ _ _ _ (.inl rfl) rfl j).trans ?_
  unfold tileCount
  refine Finset.sum_congr rfl fun a _ => Finset.sum_congr rfl fun p _ => Finset.sum_congr rfl fun n _ => ?_
  exact mask_apply i k t c lab v6 v8 v42 ht hc h6 h8 h42 a p n

/-- One trip's total: the running total plus the hinge losses of the valid triplets of the (anchor tile, positive tile) pair. -/
theorem trip_total (i : grid1.Coords) (k : Fin k1_t1_loop.trips) (t : Fin 48) (c : Fin 3) (ht : (i 0).val = t.val) (hc : k.val = c.val)
    (D : (⟨2, ![384, 384]⟩ : Shape).Idx → EReal) (lab : (⟨1, ![384]⟩ : Shape).Idx → BitVec 32)
    (v3 : Vec Ideal S8x384 .f32) (v6 : Vec Ideal S8x1 .i32) (v8 : Vec Ideal S1x384 .i32) (v39 : Vec Ideal S8x128 .f32) (v42 : Vec Ideal S1x128 .i32)
    (h3 : ∀ (a : Fin 8) (n : Fin 384), v3 (ix2 a n) = D (ix2 (row t a) n))
    (h6 : ∀ a : Fin 8, v6 (ix2 a (0 : Fin 1)) = lab (ix1 (row t a)))
    (h8 : ∀ n : Fin 384, v8 (ix2 (0 : Fin 1) n) = lab (ix1 n))
    (h39 : ∀ (a : Fin 8) (p : Fin 128), v39 (ix2 a p) = D (ix2 (row t a) (col c p)))
    (h42 : ∀ p : Fin 128, v42 (ix2 (0 : Fin 1) p) = lab (ix1 (col c p)))
    (arg7 : FVec Ideal S1x1 .f32) (j : S1x1.Idx) :
    k1_pay3 (F := Ideal) (k1_pay4 v3) (k1_pay5 v6) (k1_pay6 i) (k1_pay7 v6 v8) 0#32 1#32 k arg7 v39 v42 j = arg7 j + tileTotal D lab t c := by
  unfold k1_pay3
  rw [addf_apply]
  refine congrArg (fun x : EReal => arg7 j + x) ?_
  refine (tripleSum_apply _ _ _ _ _ _ (.inl rfl) rfl j).trans ?_
  unfold tileTotal
  refine Finset.sum_congr rfl fun a _ => Finset.sum_congr rfl fun p _ => Finset.sum_congr rfl fun n _ => ?_
  rw [mulf_apply, mask_apply i k t c lab v6 v8 v42 ht hc h6 h8 h42 a p n, maximumf_apply, addf_apply, subf_apply,
    broadcast_apply, broadcast_apply, broadcastTo_ab1_abc_apply, broadcastTo_a1c_abc_apply, shapeCast_ab_ab1_apply,
    shapeCast_ac_a1c_apply, shapeCast_same_apply, h39]
  unfold k1_pay4
  rw [shapeCast_same_apply, h3]
  by_cases hv : valid lab (row t a) (col c p) n
  · rw [if_pos hv, if_pos hv, one_mul]
    rfl
  · rw [if_neg hv, if_neg hv, zero_mul]

end Cert.Triplet
end
-- ==== Proof.SpecSums.lean ====
/-
  Sums of the specification: the number of valid triplets is a small natural number, the word conversions and the
  comparison the programs apply to it read it exactly, and the sums over anchors and positives regroup tile by tile.
-/
import proofs.«111588_j85598698209924_1_alg».proof.Proof.Spec
import Idealize.ShloMosaic.PureOps.Ideal.Laws
import Mathlib.Algebra.BigOperators.Fin

noncomputable section

open scoped BigOperators
open Idealize.ShloMosaic Idealize.ShloMosaic.ValueIdx

namespace Cert.Triplet

/-- Each triplet counts at most once, so the count is at most 384³ = 56623104, below 2³¹. -/
theorem count_lt (lab : (⟨1, ![384]⟩ : Shape).Idx → BitVec 32) : count lab < 2 ^ 31 := by
  have h : count lab ≤ ∑ _a : Fin 384, ∑ _p : Fin 384, ∑ _n : Fin 384, 1 := by
    unfold count
    refine Finset.sum_le_sum fun a _ => Finset.sum_le_sum fun p _ => Finset.sum_le_sum fun n _ => ?_
    split_ifs <;> omega
  simp only [Finset.sum_const, Finset.card_univ, Fintype.card_fin, smul_eq_mul] at h
  omega

/-- A natural number below 2³¹ is its own truncation toward zero and is not clamped. -/
theorem fptosi_natCast (N : ℕ) (hN : N < 2 ^ 31) :
    FloatOps.fptosi (F := Ideal) (φ := .f32) 32 ((N : ℕ) : EReal) = BitVec.ofNat 32 N := by
  show Ideal.fptosi 32 ((N : ℕ) : EReal) = BitVec.ofNat 32 N
  have hc : ((N : ℕ) : EReal) = ((N : ℝ) : EReal) := (EReal.coe_natCast (n := N)).symm
  rw [hc, Ideal.fptosi, Ideal.toIntClamped_coe, if_pos (Nat.cast_nonneg N), Int.floor_natCast]
  have hm : max (-((2 ^ (32 - 1) : ℕ) : ℤ)) (min (((2 ^ (32 - 1) : ℕ) : ℤ) - 1) (N : ℤ)) = (N : ℤ) := by
    have h1 : ((2 ^ (32 - 1) : ℕ) : ℤ) = 2147483648 := by norm_num
    rw [h1]
    have h2 : (N : ℤ) < 2147483648 := by exact_mod_cast hN
    have h3 : (0 : ℤ) ≤ (N : ℤ) := Int.natCast_nonneg N
    rw [min_eq_right (by omega), max_eq_right (by omega)]
  rw [hm, BitVec.ofInt_natCast]

/-- The signed value of the 32-bit word of a natural number below 2³¹ is the number. -/
theorem toInt_ofNat_lt (N : ℕ) (hN : N < 2 ^ 31) : (BitVec.ofNat 32 N).toInt = (N : ℤ) := by
  rw [BitVec.toInt_eq_toNat_of_lt (by rw [BitVec.toNat_ofNat]; omega), BitVec.toNat_ofNat]
  congr 1
  omega

theorem sitofp_ofNat (N : ℕ) (hN : N < 2 ^ 31) :
    FloatOps.sitofp (F := Ideal) .f32 (BitVec.ofNat 32 N) = ((N : ℕ) : EReal) := by
  show ((((BitVec.ofNat 32 N).toInt : ℤ) : ℝ) : EReal) = ((N : ℕ) : EReal)
  rw [toInt_ofNat_lt N hN, Int.cast_natCast, EReal.coe_natCast]

/-- Both sides are the one-bit word of 'N is positive'. -/
theorem cmp_ogt_eq_sgt (N : ℕ) (hN : N < 2 ^ 31) :
    FloatOps.cmpf (F := Ideal) (φ := .f32) .ogt ((N : ℕ) : EReal) w0 = IntOp.cmpi .sgt (BitVec.ofNat 32 N) 0#32 := by
  show BitVec.ofBool (decide (w0 < ((N : ℕ) : EReal))) = BitVec.ofBool ((0#32).slt (BitVec.ofNat 32 N))
  congr 1
  have hw : w0 = 0 := Ideal.ofBits_zero_f32
  rw [BitVec.slt, toInt_ofNat_lt N hN, hw]
  have h0 : (0#32).toInt = 0 := by decide
  rw [h0]
  have : ((0 : EReal) < ((N : ℕ) : EReal)) ↔ ((0 : ℤ) < (N : ℤ)) := by
    rw [← EReal.coe_natCast, EReal.coe_pos, Nat.cast_pos]
    omega
  exact decide_eq_decide.mpr this

/-- A sum over an axis of extent Tn·R, regrouped as the sum over Tn consecutive tiles of width R of the sums inside
    each tile (position r of tile s is the coordinate R·s + r). -/
theorem sum_fin_tiles {β : Type*} [AddCommMonoid β] {Tn R N : ℕ} (hN : N = Tn * R) (f : Fin N → β)
    (idx : Fin Tn → Fin R → Fin N) (hidx : ∀ s r, (idx s r).val = R * s.val + r.val) :
    ∑ i : Fin N, f i = ∑ s : Fin Tn, ∑ r : Fin R, f (idx s r) := by
  subst hN
  rw [← Equiv.sum_comp finProdFinEquiv f, Fintype.sum_prod_type]
  refine Finset.sum_congr rfl fun s _ => Finset.sum_congr rfl fun r _ => congrArg f (Fin.ext ?_)
  rw [hidx]
  show r.val + R * s.val = R * s.val + r.val
  exact Nat.add_comm _ _

/-- A double sum over anchors and positives, regrouped by (anchor tile, positive tile) pairs. -/
theorem sum_pairs_tiles {β : Type*} [AddCommMonoid β] (g : Fin 384 → Fin 384 → β) :
    ∑ a : Fin 384, ∑ p : Fin 384, g a p
      = ∑ t : Fin 48, ∑ c : Fin 3, ∑ a : Fin 8, ∑ p : Fin 128, g (row t a) (col c p) := by
  rw [sum_fin_tiles (Tn := 48) (R := 8) (by norm_num) (fun a => ∑ p : Fin 384, g a p) row (fun _ _ => rfl)]
  refine Finset.sum_congr rfl fun t _ => ?_
  conv_rhs => rw [Finset.sum_comm]
  refine Finset.sum_congr rfl fun a _ => ?_
  exact sum_fin_tiles (Tn := 3) (R := 128) (by norm_num) (fun p => g (row t a) p) col (fun _ _ => rfl)

theorem count_eq_tiles (lab : (⟨1, ![384]⟩ : Shape).Idx → BitVec 32) :
    ((count lab : ℕ) : EReal) = ∑ t : Fin 48, ∑ c : Fin 3, tileCount lab t c := by
  unfold count tileCount
  rw [sum_pairs_tiles (fun a p => ∑ n : Fin 384, if valid lab a p n then 1 else 0)]
  simp only [Nat.cast_sum, Nat.cast_ite, Nat.cast_one, Nat.cast_zero]

theorem total_eq_tiles (D : (⟨2, ![384, 384]⟩ : Shape).Idx → EReal) (lab : (⟨1, ![384]⟩ : Shape).Idx → BitVec 32) :
    total D lab = ∑ t : Fin 48, ∑ c : Fin 3, tileTotal D lab t c := by
  unfold total tileTotal
  exact sum_pairs_tiles (fun a p => ∑ n : Fin 384, if valid lab a p n then hinge D a p n else 0)

end Cert.Triplet

end
-- ==== Proof.Region1.lean ====
/-
  The triplet kernel's two accumulators, point by point, as sums over tiles.

  At grid point t the loop's three trips add the contributions of the three positive tiles to a pair that starts at zero, and
  the point adds that pair to the accumulators (zeroed at the first point): after point t the first accumulator holds the
  ordered sum of the point totals of tiles 0 … t and the second the ordered sum of their counts. The arrays are written back
  after the last point only, so they end holding the ordered sums over all 48 anchor tiles, which are the total and the count
  of the specification.
-/
import proofs.«111588_j85598698209924_1_alg».proof.Proof.Body
import proofs.«111588_j85598698209924_1_alg».proof.Proof.Spec
import proofs.«111588_j85598698209924_1_alg».proof.Proof.TripValue
import proofs.«111588_j85598698209924_1_alg».proof.Proof.SpecSums

noncomputable section

open scoped BigOperators
open Idealize.ShloMosaic Idealize.ShloMosaic.TcCoe Idealize.ShloMosaic.Tactic Idealize.ShloMosaic.ValueIdx Idealize.SL.Sem
open Cert.KernelIdeal Cert.KernelIdeal.Gen Cert.Triplet

namespace Cert.KernelIdeal.PointValue

/-- A grid point as an anchor tile, a trip as a positive tile. -/
def tile48 (t : Fin grid1.N) : Fin 48 := ⟨t.val, lt_of_lt_of_eq t.isLt N_1⟩
def tile3 (k : Fin k1_t1_loop.trips) : Fin 3 := ⟨k.val, lt_of_lt_of_eq k.isLt trips_eq⟩

/-- What the loop's three trips add up, from zero: the point's total and count. -/
def pointTotal (D : (⟨2, ![384, 384]⟩ : Shape).Idx → EReal) (lab : (⟨1, ![384]⟩ : Shape).Idx → BitVec 32) (t : Fin 48) : EReal :=
  ((w0 + tileTotal D lab t 0) + tileTotal D lab t 1) + tileTotal D lab t 2
def pointCount (lab : (⟨1, ![384]⟩ : Shape).Idx → BitVec 32) (t : Fin 48) : EReal :=
  ((w0 + tileCount lab t 0) + tileCount lab t 1) + tileCount lab t 2

section
variable (𝒱 : Variants) (c : Dev nD) (bd : Option 𝒱.V) (t : Fin grid1.N)
  (a1 : Memref sig .tc .vmem S384x384 .f32) (h1 : a1.IsWhole) (a2 : Memref sig .tc .vmem S384x1 .i32) (h2 : a2.IsWhole)
  (a3 : Memref sig .tc .vmem S1x384 .i32) (h3 : a3.IsWhole) (a4 : Memref sig .tc .vmem S1x1 .f32) (h4 : a4.IsWhole)
  (a5 : Memref sig .tc .vmem S1x1 .f32) (h5 : a5.IsWhole)
  (x0 : Vec Ideal S384x384 .f32) (x1 : Vec Ideal S384x1 .i32) (x2 : Vec Ideal S1x384 .i32)
  (lab : (⟨1, ![384]⟩ : Shape).Idx → BitVec 32)
  (hx1 : ∀ a : Fin 384, x1 (ix2 a (0 : Fin 1)) = lab (ix1 a)) (hx2 : ∀ n : Fin 384, x2 (ix2 (0 : Fin 1) n) = lab (ix1 n))

/-- The three values the body loads before the loop. -/
abbrev ldRows : Vec Ideal S8x384 .f32 :=
  View.readAt (Elt Ideal) a1.view (Rect.unit (s := S384x384) (k1_off1 (grid1.coords t)) S8x384.size (k1_off1_inb (grid1.coords t))).toLoadRect (h1.unread x0)
abbrev ldLabs : Vec Ideal S8x1 .i32 :=
  View.readAt (Elt Ideal) a2.view (Rect.unit (s := S384x1) (k1_off2 (grid1.coords t)) S8x1.size (k1_off2_inb (grid1.coords t))).toLoadRect (h2.unread x1)
abbrev ldRow : Vec Ideal S1x384 .i32 :=
  View.readAt (Elt Ideal) a3.view (Rect.unit (s := S1x384) ![0, 0] S1x384.size inb_S1x384_S1x384_0_0).toLoadRect (h3.unread x2)

include hx1 hx2 in
/-- One trip adds its positive tile's total and count to the carried pair. -/
theorem trip_step (v1 : BitVec 32) (k : Fin k1_t1_loop.trips) (acc : FVec Ideal S1x1 .f32 × FVec Ideal S1x1 .f32) :
    tripR_k1_t1 (F := Ideal) 𝒱 c bd (grid1.coords t) a1 h1 a2 h2 a3 h3 a4 h4 a5 h5 v1 (ldRows t a1 h1 x0) (ldLabs t a2 h2 x1) (ldRow a3 h3 x2)
        (h1.unread x0) (h3.unread x2) k acc
      = (fun j => acc.1 j + tileTotal x0 lab (tile48 t) (tile3 k), fun j => acc.2 j + tileCount lab (tile48 t) (tile3 k)) := by
  rw [trip_eq]
  refine Prod.ext (funext fun j => ?_) (funext fun j => ?_)
  · exact trip_total (grid1.coords t) k (tile48 t) (tile3 k) (coords0 t) rfl x0 lab _ _ _ _ _
      (fun a n => rd_rows a1 h1 x0 t a n _ rfl)
      (fun a => (rd_labs a2 h2 x1 t a _ rfl).trans (hx1 _))
      (fun n => (congrFun (rd_row a3 h3 x2) _).trans (hx2 n))
      (fun a p => rd_block a1 h1 x0 t k a p _ _ rfl rfl)
      (fun p => (rd_cols a3 h3 x2 k p _ rfl).trans (hx2 _)) acc.1 j
  · show acc.2 j + _ = _
    refine congrArg (acc.2 j + ·) ?_
    exact trip_count (grid1.coords t) k (tile48 t) (tile3 k) (coords0 t) rfl lab _ _ _
      (fun a => (rd_labs a2 h2 x1 t a _ rfl).trans (hx1 _))
      (fun n => (congrFun (rd_row a3 h3 x2) _).trans (hx2 n))
      (fun p => (rd_cols a3 h3 x2 k p _ rfl).trans (hx2 _)) j

include hx1 hx2 in
/-- The loop's result: the point's total and count. -/
theorem loop_value (v1 : BitVec 32) (n : ℕ) (hn : n = 3) :
    st_k1_t1 (F := Ideal) 𝒱 c bd (grid1.coords t) a1 h1 a2 h2 a3 h3 a4 h4 a5 h5 v1 (ldRows t a1 h1 x0) (ldLabs t a2 h2 x1) (ldRow a3 h3 x2)
        (h1.unread x0) (h3.unread x2) (k1_pay8 (F := Ideal), k1_pay9 (F := Ideal)) n
      = (fun _ => pointTotal x0 lab (tile48 t), fun _ => pointCount lab (tile48 t)) := by
  subst hn
  have q0 : 0 < k1_t1_loop.trips := by rw [trips_eq]; omega
  have q1 : 1 < k1_t1_loop.trips := by rw [trips_eq]; omega
  have q2 : 2 < k1_t1_loop.trips := by rw [trips_eq]; omega
  refine (st_k1_t1_succ (F := Ideal) 𝒱 c bd (grid1.coords t) a1 h1 a2 h2 a3 h3 a4 h4 a5 h5 v1 _ _ _ _ _ _ ⟨2, q2⟩).trans ?_
  rw [trip_step 𝒱 c bd t a1 h1 a2 h2 a3 h3 a4 h4 a5 h5 x0 x1 x2 lab hx1 hx2]
  rw [show ((⟨2, q2⟩ : Fin k1_t1_loop.trips).val) = (⟨1, q1⟩ : Fin k1_t1_loop.trips).val + 1 from rfl, st_k1_t1_succ,
    trip_step 𝒱 c bd t a1 h1 a2 h2 a3 h3 a4 h4 a5 h5 x0 x1 x2 lab hx1 hx2]
  rw [show ((⟨1, q1⟩ : Fin k1_t1_loop.trips).val) = (⟨0, q0⟩ : Fin k1_t1_loop.trips).val + 1 from rfl, st_k1_t1_succ,
    trip_step 𝒱 c bd t a1 h1 a2 h2 a3 h3 a4 h4 a5 h5 x0 x1 x2 lab hx1 hx2]
  rfl

/-- The zero block the first point stores, and a pair's component added to a block, at the one index. -/
theorem pay11_apply (j : S1x1.Idx) : k1_pay11 (F := Ideal) j = w0 := rfl
theorem pay12_apply (j : S1x1.Idx) : k1_pay12 (F := Ideal) j = w0 := rfl

include hx1 hx2 in
/-- The first point leaves zero plus its total in the first accumulator … -/
theorem out_A_3 (hc : cond1_0 (grid1.coords t)) :
    out1_A_3 (F := Ideal) c (grid1.coords t) a1 h1 a2 h2 a3 h3 a4 h4 a5 h5 hc x0 x1 x2 = fun _ => w0 + pointTotal x0 lab (tile48 t) := by
  unfold out1_A_3
  rw [View.read_writes_eq_canon _ _ _ (cover1_A_3 c (grid1.coords t) a1 h1 a2 h2 a3 h3 a4 h4 a5 h5 hc x0 x1 x2)]
  unfold kernelRun1_A
  dsimp only
  sl_unfold_run_names
  rw [View.canon_cons_unit_zero (S := S1x1) hz2, View.readCov_unit_zero (S := S1x1) _ hz2]
  have L := loop_value Variants.none c none t a1 h1 a2 h2 a3 h3 a4 h4 a5 h5 x0 x1 x2 lab hx1 hx2
    (Scalar.muli (BitVec.ofNat 32 ↑(grid1.coords t 0)) 8#32) (Scf.trips (0#32) (Scalar.addi 0#32 3#32) 1#32) (by decide)
  refine (congrArg (fun s => k1_pay13 (F := Ideal) s.1 (k1_pay11 (F := Ideal))) L).trans ?_
  funext j
  unfold k1_pay13
  simp only [shapeCast_self]
  rfl

include hx1 hx2 in
/-- … and zero plus its count in the second. -/
theorem out_A_4 (hc : cond1_0 (grid1.coords t)) :
    out1_A_4 (F := Ideal) c (grid1.coords t) a1 h1 a2 h2 a3 h3 a4 h4 a5 h5 hc x0 x1 x2 = fun _ => w0 + pointCount lab (tile48 t) := by
  unfold out1_A_4
  rw [View.read_writes_eq_canon _ _ _ (cover1_A_4 c (grid1.coords t) a1 h1 a2 h2 a3 h3 a4 h4 a5 h5 hc x0 x1 x2)]
  unfold kernelRun1_A
  dsimp only
  sl_unfold_run_names
  rw [View.canon_cons_unit_zero (S := S1x1) hz2, View.readCov_unit_zero (S := S1x1) _ hz2]
  have L := loop_value Variants.none c none t a1 h1 a2 h2 a3 h3 a4 h4 a5 h5 x0 x1 x2 lab hx1 hx2
    (Scalar.muli (BitVec.ofNat 32 ↑(grid1.coords t 0)) 8#32) (Scf.trips (0#32) (Scalar.addi 0#32 3#32) 1#32) (by decide)
  refine (congrArg (fun s => k1_pay14 (F := Ideal) s.2 (k1_pay12 (F := Ideal))) L).trans ?_
  funext j
  unfold k1_pay14
  simp only [shapeCast_self]
  rfl

include hx1 hx2 in
/-- A later point adds its total to what the point before left in the first accumulator … -/
theorem out_B_3 (hc : ¬cond1_0 (grid1.coords t)) (xo3 xo4 : Vec Ideal S1x1 .f32) :
    out1_B_3 (F := Ideal) c (grid1.coords t) a1 h1 a2 h2 a3 h3 a4 h4 a5 h5 hc x0 x1 x2 xo3 xo4 = fun j => xo3 j + pointTotal x0 lab (tile48 t) := by
  unfold out1_B_3
  rw [View.read_writes_eq_canon _ _ _ (cover1_B_3 c (grid1.coords t) a1 h1 a2 h2 a3 h3 a4 h4 a5 h5 hc x0 x1 x2 xo3 xo4)]
  unfold kernelRun1_B
  dsimp only
  sl_unfold_run_names
  rw [View.canon_unit_zero (S := S1x1) hz2]
  have L := loop_value Variants.none c none t a1 h1 a2 h2 a3 h3 a4 h4 a5 h5 x0 x1 x2 lab hx1 hx2
    (Scalar.muli (BitVec.ofNat 32 ↑(grid1.coords t 0)) 8#32) (Scf.trips k1_t1_loop.lb k1_t1_loop.ub k1_t1_loop.st) (by decide)
  refine (congrArg (fun s => k1_pay13 (F := Ideal) s.1
    (View.readAt (Elt Ideal) a4.view (Rect.unit (s := S1x1) ![0, 0] S1x1.size inb_S1x1_S1x1_0_0).toLoadRect (h4.unread xo3))) L).trans ?_
  funext j
  unfold k1_pay13
  simp only [View.readAt_eq_ld, h4.read_unread, View.ld_unit_zero (S := S1x1) hz2, shapeCast_self]
  rfl

include hx1 hx2 in
/-- … and its count in the second. -/
theorem out_B_4 (hc : ¬cond1_0 (grid1.coords t)) (xo3 xo4 : Vec Ideal S1x1 .f32) :
    out1_B_4 (F := Ideal) c (grid1.coords t) a1 h1 a2 h2 a3 h3 a4 h4 a5 h5 hc x0 x1 x2 xo3 xo4 = fun j => xo4 j + pointCount lab (tile48 t) := by
  unfold out1_B_4
  rw [View.read_writes_eq_canon _ _ _ (cover1_B_4 c (grid1.coords t) a1 h1 a2 h2 a3 h3 a4 h4 a5 h5 hc x0 x1 x2 xo3 xo4)]
  unfold kernelRun1_B
  dsimp only
  sl_unfold_run_names
  rw [View.canon_unit_zero (S := S1x1) hz2]
  have L := loop_value Variants.none c none t a1 h1 a2 h2 a3 h3 a4 h4 a5 h5 x0 x1 x2 lab hx1 hx2
    (Scalar.muli (BitVec.ofNat 32 ↑(grid1.coords t 0)) 8#32) (Scf.trips k1_t1_loop.lb k1_t1_loop.ub k1_t1_loop.st) (by decide)
  refine (congrArg (fun s => k1_pay14 (F := Ideal) s.2
    (View.readAt (Elt Ideal) a5.view (Rect.unit (s := S1x1) ![0, 0] S1x1.size inb_S1x1_S1x1_0_0).toLoadRect (h5.unread xo4))) L).trans ?_
  funext j
  unfold k1_pay14
  simp only [View.readAt_eq_ld, h5.read_unread, View.ld_unit_zero (S := S1x1) hz2, shapeCast_self]
  rfl

end

/-! ## The accumulators after each point, and the arrays the region leaves -/

section Accumulate

variable (V : (c : Dev nD) → (b : Ref sig .tc) → Buf (Elt Ideal) ((c : Thread nD τ).loc b)) (c : Dev nD)
  (D : (⟨2, ![384, 384]⟩ : Shape).Idx → EReal) (lab : (⟨1, ![384]⟩ : Shape).Idx → BitVec 32)
  (hD : (V c main_v2 : S384x384.Idx → EReal) = D)
  (hv0 : ∀ a : Fin 384, (V c main_v0 : S384x1.Idx → BitVec 32) (ix2 a (0 : Fin 1)) = lab (ix1 a))
  (hv1 : ∀ n : Fin 384, (V c main_v1 : S1x384.Idx → BitVec 32) (ix2 (0 : Fin 1) n) = lab (ix1 n))

/-- Every window's block index is zero on both axes at every point: each block is its whole array. -/
theorem block_index1 : ∀ t : Fin cfg1.N, (win1_0.index t (0 : Fin 2) = 0 ∧ win1_0.index t (1 : Fin 2) = 0)
    ∧ (win1_1.index t (0 : Fin 2) = 0 ∧ win1_1.index t (1 : Fin 2) = 0) ∧ (win1_2.index t (0 : Fin 2) = 0 ∧ win1_2.index t (1 : Fin 2) = 0)
    ∧ (win1_3.index t (0 : Fin 2) = 0 ∧ win1_3.index t (1 : Fin 2) = 0) ∧ (win1_4.index t (0 : Fin 2) = 0 ∧ win1_4.index t (1 : Fin 2) = 0) :=
  (by decide +kernel : ∀ t : Fin grid1.N, _)

/-- The three input blocks at any point are the three input arrays. -/
theorem blk0 (t : Fin cfg1.N) : (iblk1 V c 0 t : Vec Ideal S384x384 .f32) = V c main_v2 := by
  funext y
  show V c main_v2 (((cfg1.win 0).blk t).view.emb y) = _
  refine congrArg _ (funext fun a => Fin.ext ?_)
  obtain ⟨⟨e0, e1⟩, -⟩ := block_index1 t
  match a with
  | ⟨0, _⟩ => show win1_0.index t (0 : Fin 2) * 384 + 1 * (y 0).val = (y 0).val; omega
  | ⟨1, _⟩ => show win1_0.index t (1 : Fin 2) * 384 + 1 * (y 1).val = (y 1).val; omega
theorem blk1 (t : Fin cfg1.N) : (iblk1 V c 1 t : Vec Ideal S384x1 .i32) = V c main_v0 := by
  funext y
  show V c main_v0 (((cfg1.win 1).blk t).view.emb y) = _
  refine congrArg _ (funext fun a => Fin.ext ?_)
  obtain ⟨-, ⟨e0, e1⟩, -⟩ := block_index1 t
  match a with
  | ⟨0, _⟩ => show win1_1.index t (0 : Fin 2) * 384 + 1 * (y 0).val = (y 0).val; omega
  | ⟨1, _⟩ => show win1_1.index t (1 : Fin 2) * 1 + 1 * (y 1).val = (y 1).val; omega
theorem blk2 (t : Fin cfg1.N) : (iblk1 V c 2 t : Vec Ideal S1x384 .i32) = V c main_v1 := by
  funext y
  show V c main_v1 (((cfg1.win 2).blk t).view.emb y) = _
  refine congrArg _ (funext fun a => Fin.ext ?_)
  obtain ⟨-, -, ⟨e0, e1⟩, -⟩ := block_index1 t
  match a with
  | ⟨0, _⟩ => show win1_2.index t (0 : Fin 2) * 1 + 1 * (y 0).val = (y 0).val; omega
  | ⟨1, _⟩ => show win1_2.index t (1 : Fin 2) * 384 + 1 * (y 1).val = (y 1).val; omega

/-- The ordered running sums after point `n`: zero plus the first point's, then each later point's added. -/
def chainT : (n : ℕ) → n < cfg1.N → EReal
  | 0, h => w0 + pointTotal D lab (tile48 ⟨0, h⟩)
  | n + 1, h => chainT n (Nat.lt_of_succ_lt h) + pointTotal D lab (tile48 ⟨n + 1, h⟩)
def chainC : (n : ℕ) → n < cfg1.N → EReal
  | 0, h => w0 + pointCount lab (tile48 ⟨0, h⟩)
  | n + 1, h => chainC n (Nat.lt_of_succ_lt h) + pointCount lab (tile48 ⟨n + 1, h⟩)

include hD hv0 hv1 in
/-- What the two accumulators hold after point `n` is the pair of running sums: by induction on the point. -/
theorem outsAt_eq : ∀ (n : ℕ) (h : n < cfg1.N), outsAt1 V c n h = (fun _ => chainT D lab n h, fun _ => chainC lab n h)
  | 0, h => by
    have hx1 : ∀ a : Fin 384, (iblk1 V c 1 ⟨0, h⟩ : Vec Ideal S384x1 .i32) (ix2 a (0 : Fin 1)) = lab (ix1 a) :=
      fun a => (congrFun (blk1 V c ⟨0, h⟩) _).trans (hv0 a)
    have hx2 : ∀ n : Fin 384, (iblk1 V c 2 ⟨0, h⟩ : Vec Ideal S1x384 .i32) (ix2 (0 : Fin 1) n) = lab (ix1 n) :=
      fun n => (congrFun (blk2 V c ⟨0, h⟩) _).trans (hv1 n)
    refine (outsAt1_A V c ⟨0, h⟩ rfl).trans (Prod.ext ?_ ?_)
    · refine (out_A_3 c ⟨0, h⟩ (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩)
        (iblk1 V c 0 ⟨0, h⟩) (iblk1 V c 1 ⟨0, h⟩) (iblk1 V c 2 ⟨0, h⟩) lab hx1 hx2 ((hcond1_0 ⟨0, h⟩).mpr rfl)).trans ?_
      rw [blk0 V c ⟨0, h⟩, hD]; rfl
    · refine (out_A_4 c ⟨0, h⟩ (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩)
        (iblk1 V c 0 ⟨0, h⟩) (iblk1 V c 1 ⟨0, h⟩) (iblk1 V c 2 ⟨0, h⟩) lab hx1 hx2 ((hcond1_0 ⟨0, h⟩).mpr rfl)).trans ?_
      rfl
  | n + 1, h => by
    have hN : cfg1.N = 48 := N_1
    have hB : ¬(⟨n + 1, h⟩ : Fin cfg1.N).val % 48 = 0 := by dsimp only; omega
    have hx1 : ∀ a : Fin 384, (iblk1 V c 1 ⟨n + 1, h⟩ : Vec Ideal S384x1 .i32) (ix2 a (0 : Fin 1)) = lab (ix1 a) :=
      fun a => (congrFun (blk1 V c ⟨n + 1, h⟩) _).trans (hv0 a)
    have hx2 : ∀ q : Fin 384, (iblk1 V c 2 ⟨n + 1, h⟩ : Vec Ideal S1x384 .i32) (ix2 (0 : Fin 1) q) = lab (ix1 q) :=
      fun q => (congrFun (blk2 V c ⟨n + 1, h⟩) _).trans (hv1 q)
    have ih := outsAt_eq n (Nat.lt_of_succ_lt h)
    refine (outsAt1_B V c ⟨n + 1, h⟩ hB).trans (Prod.ext ?_ ?_)
    · refine (out_B_3 c ⟨n + 1, h⟩ (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩)
        (iblk1 V c 0 ⟨n + 1, h⟩) (iblk1 V c 1 ⟨n + 1, h⟩) (iblk1 V c 2 ⟨n + 1, h⟩) lab hx1 hx2 (fun hcnd => hB ((hcond1_0 ⟨n + 1, h⟩).mp hcnd))
        (outsAt1 V c ((⟨n + 1, h⟩ : Fin cfg1.N).val - 1) (Nat.lt_of_le_of_lt (Nat.sub_le _ _) (⟨n + 1, h⟩ : Fin cfg1.N).isLt)).1
        (outsAt1 V c ((⟨n + 1, h⟩ : Fin cfg1.N).val - 1) (Nat.lt_of_le_of_lt (Nat.sub_le _ _) (⟨n + 1, h⟩ : Fin cfg1.N).isLt)).2).trans ?_
      show (fun j => (outsAt1 V c n _).1 j + _) = _
      rw [ih, blk0 V c ⟨n + 1, h⟩, hD]; rfl
    · refine (out_B_4 c ⟨n + 1, h⟩ (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩)
        (iblk1 V c 0 ⟨n + 1, h⟩) (iblk1 V c 1 ⟨n + 1, h⟩) (iblk1 V c 2 ⟨n + 1, h⟩) lab hx1 hx2 (fun hcnd => hB ((hcond1_0 ⟨n + 1, h⟩).mp hcnd))
        (outsAt1 V c ((⟨n + 1, h⟩ : Fin cfg1.N).val - 1) (Nat.lt_of_le_of_lt (Nat.sub_le _ _) (⟨n + 1, h⟩ : Fin cfg1.N).isLt)).1
        (outsAt1 V c ((⟨n + 1, h⟩ : Fin cfg1.N).val - 1) (Nat.lt_of_le_of_lt (Nat.sub_le _ _) (⟨n + 1, h⟩ : Fin cfg1.N).isLt)).2).trans ?_
      show (fun j => (outsAt1 V c n _).2 j + _) = _
      rw [ih]; rfl

end Accumulate

end Cert.KernelIdeal.PointValue

end
-- ==== Proof.KernelRun.lean ====
/-
  What the kernel's run leaves in its two result buffers.

  The run: at the compiled mesh, from any memory with zero counters, every weakly fair execution of @main terminates and the
  final state holds, at the two result buffers, the contents the fold through @main's segments ends at, and at the two
  argument buffers what was launched.

  The tail: after the second region has left the running total T and the running count N in its two 1x1 accumulators, the
  host operations reshape both to scalars, compare N > 0, divide T by N, select the quotient or 0, and convert N to a 32-bit
  integer. So the first result is select (N > 0) (T / N) 0 and the second is the integer conversion of N.
-/
import proofs.«111588_j85598698209924_1_alg».proof.Proof.Gen.KernelIdeal.Frame
import proofs.«111588_j85598698209924_1_alg».proof.Proof.Spec
import Idealize.ShloMosaic.Lib.StableHlo.Run
import Idealize.ShloMosaic.Lib.Pipeline.Value
import Idealize.ShloMosaic.Lib.ValueIdx

noncomputable section
open scoped BigOperators
open Idealize.ShloMosaic Idealize.ShloMosaic.TcCoe Idealize.ShloMosaic.ValueIdx Idealize.SL.Sem Cert.KernelIdeal Cert.KernelIdeal.Gen Cert.Triplet

namespace Cert.KernelIdeal.RunValue

section Run
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]
/-- The resource model the run's separation-logic steps are stated over. -/
local notation "𝕄" => MT nD τ sig Unit (Elt F) ℕ (UR sig nD τ) ℕ

-- the launch theorem's implicit arguments are found by unifying its conclusion with this one, which takes unfolding
-- plain definitions in a metavariable's type
set_option backward.isDefEq.respectTransparency.types false in
/-- The run, with the two result buffers read back beside the two arguments: the launch over @main's segments ends with
    every unscoped buffer at the last boundary's contents; the results are read there as they are, the arguments walk
    back to the launch memory. -/
theorem run_values (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v8) = W6 m ρ c (Proc.devRef .tc main_v8)
      ∧ r.2.mem ((c.tc : Thread nD τ).loc main_v9) = W6 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v8 (by decide)), h c _ (mem_uc main_v9 (by decide)),
       (h c _ (mem_uc main_arg0 (by decide))).trans (W6_main_arg0 m ρ c),
       (h c _ (mem_uc main_arg1 (by decide))).trans (W6_main_arg1 m ρ c)⟩)

end Run

/-- Both shapes have one element, so an index of the one and an index of the other sit at the same row-major position. -/
private theorem pos_eq (k : S1x1.Idx) (i : S_.Idx) : (S1x1.rowMajor k).val = (S_.rowMajor i).val := by
  have h1 := (S1x1.rowMajor k).isLt
  have h2 := (S_.rowMajor i).isLt
  have e1 : S1x1.numel = 1 := by decide
  have e2 : S_.numel = 1 := by decide
  omega

/-- A 1x1 array that holds `x` everywhere, reshaped to a scalar, holds `x`. -/
private theorem reshape_const {α : Type} (v : S1x1.Idx → α) (x : α) (hv : ∀ j, v j = x) (h : S1x1.ShapeCasts S_) (i : S_.Idx) :
    shapeCast S_ v h i = x :=
  (shapeCast_apply v h i (ix2 (0 : Fin 1) (0 : Fin 1)) (pos_eq _ _)).trans (hv _)

/-- The second result: the running count, reshaped to a scalar and converted to a 32-bit integer. -/
theorem tail_v9 (m : (ℓ : Loc nD τ sig) → Buf (Elt Ideal) ℓ) (ρ : Dev nD → PrngReg) (c : Dev nD) (N : EReal)
    (h4 : ∀ j : S1x1.Idx, (W3 m ρ c (Proc.devRef .tc main_v3_1) : S1x1.Idx → EReal) j = N) :
    (W6 m ρ c (Proc.devRef .tc main_v9) : S_.Idx → BitVec 32) = fun _ => FloatOps.fptosi (F := Ideal) (φ := .f32) 32 N := by
  dsimp only [W6, W5, W4]
  open StableHlo in after_results
  funext i
  exact congrArg (FloatOps.fptosi (F := Ideal) (φ := .f32) 32)
    (reshape_const (α := EReal) (W3 m ρ c (Proc.devRef .tc main_v3_1)) N h4 shapeCasts_S1x1_S_ i)

/-- The first result: the running total and the running count reshaped to scalars, the count compared with 0, the total
    divided by the count, and the quotient or 0 selected (the select is the called function's one operation, read at the
    caller's buffers). -/
theorem tail_v8 (m : (ℓ : Loc nD τ sig) → Buf (Elt Ideal) ℓ) (ρ : Dev nD → PrngReg) (c : Dev nD) (T N : EReal)
    (h3 : ∀ j : S1x1.Idx, (W3 m ρ c (Proc.devRef .tc main_v3_0) : S1x1.Idx → EReal) j = T)
    (h4 : ∀ j : S1x1.Idx, (W3 m ρ c (Proc.devRef .tc main_v3_1) : S1x1.Idx → EReal) j = N) :
    (W6 m ρ c (Proc.devRef .tc main_v8) : S_.Idx → EReal) = fun _ =>
      Scalar.select (FloatOps.cmpf (F := Ideal) (φ := .f32) .ogt N w0) (FloatOps.hostDivf (F := Ideal) (φ := .f32) T N) w0 := by
  dsimp only [W6, W5, W4]
  open StableHlo in after_results
  funext i
  have e3 : shapeCast S_ (α := EReal) (W3 m ρ c (Proc.devRef .tc main_v3_0)) shapeCasts_S1x1_S_ i = T :=
    reshape_const (α := EReal) _ T h3 _ i
  have e4 : shapeCast S_ (α := EReal) (W3 m ρ c (Proc.devRef .tc main_v3_1)) shapeCasts_S1x1_S_ i = N :=
    reshape_const (α := EReal) _ N h4 _ i
  show Scalar.select
      (FloatOps.cmpf (F := Ideal) (φ := .f32) .ogt
        (shapeCast S_ (α := EReal) (W3 m ρ c (Proc.devRef .tc main_v3_1)) shapeCasts_S1x1_S_ i) w0)
      (FloatOps.hostDivf (F := Ideal) (φ := .f32)
        (shapeCast S_ (α := EReal) (W3 m ρ c (Proc.devRef .tc main_v3_0)) shapeCasts_S1x1_S_ i)
        (shapeCast S_ (α := EReal) (W3 m ρ c (Proc.devRef .tc main_v3_1)) shapeCasts_S1x1_S_ i)) w0 = _
  rw [e3, e4]

end Cert.KernelIdeal.RunValue
end
-- ==== Proof.Entry.lean ====
import proofs.«111588_j85598698209924_1_alg».proof.Proof.Gen.KernelIdeal.Frame
import proofs.«111588_j85598698209924_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section
open scoped BigOperators
open Idealize.ShloMosaic Idealize.ShloMosaic.TcCoe Idealize.ShloMosaic.ValueIdx Idealize.SL.Sem Cert.KernelIdeal Cert.KernelIdeal.Gen Cert.Triplet

namespace Cert.KernelIdeal.RunValue

/-- The labels as a column: the host's reshape of the label vector to `[384, 1]`, which the first pipeline leaves
    untouched, read at row `a`. -/
theorem entry_v0 (m : (ℓ : Loc nD τ sig) → Buf (Elt Ideal) ℓ) (ρ : Dev nD → PrngReg) (c : Dev nD) (a : Fin 384) :
    (V2 m ρ c main_v0 : S384x1.Idx → BitVec 32) (ix2 a (0 : Fin 1)) = (m ((c.tc : Thread nD τ).loc main_arg1) : S384.Idx → BitVec 32) (ix1 a) := by
  have e1 : V2 m ρ c main_v0 = W1 m ρ c (Proc.devRef .tc main_v0) := W2_of_ne m ρ c main_v0 (by decide)
  have e2 : (W1 m ρ c (Proc.devRef .tc main_v0) : S384x1.Idx → BitVec 32)
      = shapeCast S384x1 (m ((c.tc : Thread nD τ).loc main_arg1) : S384.Idx → BitVec 32) shapeCasts_S384_S384x1 := by
    show StableHlo.after hostOps0 (W0 m ρ c) (Proc.devRef .tc main_v0) = _
    after_results
    rfl
  rw [e1, e2]
  exact shapeCast_apply (s := S384) (t := S384x1) _ shapeCasts_S384_S384x1 (ix2 a (0 : Fin 1)) (ix1 a) (by
    rw [Shape.rowMajor_val_two, Shape.rowMajor_val_one]
    show a.val = a.val * 1 + 0
    omega)

/-- The labels as a row: the host's reshape of the label vector to `[1, 384]`, read at column `n`. -/
theorem entry_v1 (m : (ℓ : Loc nD τ sig) → Buf (Elt Ideal) ℓ) (ρ : Dev nD → PrngReg) (c : Dev nD) (n : Fin 384) :
    (V2 m ρ c main_v1 : S1x384.Idx → BitVec 32) (ix2 (0 : Fin 1) n) = (m ((c.tc : Thread nD τ).loc main_arg1) : S384.Idx → BitVec 32) (ix1 n) := by
  have e1 : V2 m ρ c main_v1 = W1 m ρ c (Proc.devRef .tc main_v1) := W2_of_ne m ρ c main_v1 (by decide)
  have e2 : (W1 m ρ c (Proc.devRef .tc main_v1) : S1x384.Idx → BitVec 32)
      = shapeCast S1x384 (m ((c.tc : Thread nD τ).loc main_arg1) : S384.Idx → BitVec 32) shapeCasts_S384_S1x384 := by
    show StableHlo.after hostOps0 (W0 m ρ c) (Proc.devRef .tc main_v1) = _
    after_results
    rfl
  rw [e1, e2]
  exact shapeCast_apply (s := S384) (t := S1x384) _ shapeCasts_S384_S1x384 (ix2 (0 : Fin 1) n) (ix1 n) (by
    rw [Shape.rowMajor_val_two, Shape.rowMajor_val_one]
    show n.val = 0 * 384 + n.val
    omega)

/-! ## The Gram pipeline's output array

The first pipeline has ONE grid point: its input block is the whole `[384, 1024]` embedding array, its output block
the whole `[384, 384]` array, and its body stores one payload — the squared-distance matrix of the rows — over the
whole output block. So the output array ends holding that payload of the launch embeddings. -/

/-- Both offsets of the one block are zero. -/
theorem offsets_zero : (![0, 0] : Fin 2 → Nat) = fun _ => 0 := funext fun a => by fin_cases a <;> rfl

/-- At the one grid point both windows' block indices are zero on both axes. -/
theorem block_index_zero : ∀ t : Fin cfg0.N, win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- The input block's coordinates are the array's: the block is the whole array. -/
theorem emb_in (t : Fin cfg0.N) (y : S384x1024.Idx) : ((cfg0.win 0).blk t).view.emb y = y := by
  obtain ⟨e0, e1, -, -⟩ := block_index_zero t
  funext a; apply Fin.ext
  match a with
  | ⟨0, _⟩ => show win0_0.index t (0 : Fin 2) * 384 + 1 * (y 0).val = (y 0).val; omega
  | ⟨1, _⟩ => show win0_0.index t (1 : Fin 2) * 1024 + 1 * (y 1).val = (y 1).val; omega

/-- The output block's coordinates are the array's: the block is the whole array. -/
theorem emb_out (t : Fin cfg0.N) (j : S384x384.Idx) : ((cfg0.win 1).blk t).view.emb j = j := by
  obtain ⟨-, -, e0, e1⟩ := block_index_zero t
  funext a; apply Fin.ext
  match a with
  | ⟨0, _⟩ => show win0_1.index t (0 : Fin 2) * 384 + 1 * (j 0).val = (j 0).val; omega
  | ⟨1, _⟩ => show win0_1.index t (1 : Fin 2) * 384 + 1 * (j 1).val = (j 1).val; omega

/-- No host operation before the first pipeline writes the embeddings: it finds them as launched. -/
theorem entry_arg0 (m : (ℓ : Loc nD τ sig) → Buf (Elt Ideal) ℓ) (ρ : Dev nD → PrngReg) (c : Dev nD) :
    V1 m ρ c main_arg0 = m ((c.tc : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The input block at the one point is the launch embeddings. -/
theorem block_in (m : (ℓ : Loc nD τ sig) → Buf (Elt Ideal) ℓ) (ρ : Dev nD → PrngReg) (c : Dev nD) (t : Fin cfg0.N) :
    (iblk0 (V1 m ρ) c 0 t : Vec Ideal S384x1024 .f32) = m ((c.tc : Thread nD τ).loc main_arg0) := by
  funext y
  show V1 m ρ c main_arg0 (((cfg0.win 0).blk t).view.emb y) = _
  rw [entry_arg0]
  exact congrArg _ (emb_in t y)

/-- What the one point writes back is the (whole) block of the payload of the launch embeddings. -/
theorem flushed_eq (m : (ℓ : Loc nD τ sig) → Buf (Elt Ideal) ℓ) (ρ : Dev nD → PrngReg) (c : Dev nD) (t : Fin cfg0.N) :
    (dat0 (V1 m ρ) c).flushed 1 t
      = ((cfg0.win 1).blk t).view.read (Elt Ideal) (k0_pay1 (F := Ideal) (m ((c.tc : Thread nD τ).loc main_arg0))) := by
  show (cfg0.win 1).cut (grid0.coords t) ((dat0 (V1 m ρ) c).after 1 t) = _
  rw [after0_1]
  unfold out0_1
  rw [View.canon_unit_zero offsets_zero]
  simp only [View.ld_unit_zero (S := S384x1024) offsets_zero]
  funext j
  show k0_pay1 (F := Ideal) (iblk0 (V1 m ρ) c 0 t) j
    = k0_pay1 (F := Ideal) (m ((c.tc : Thread nD τ).loc main_arg0)) (((cfg0.win 1).blk t).view.emb j)
  exact (congrArg (fun x : Vec Ideal S384x1024 .f32 => k0_pay1 (F := Ideal) x j) (block_in m ρ c t)).trans
    (congrArg (k0_pay1 (F := Ideal) (m ((c.tc : Thread nD τ).loc main_arg0))) (emb_out t j).symm)

/-- Every index of the output array is in the one point's block. -/
theorem cover_out (i : S384x384.Idx) :
    ∃ t : Fin cfg0.N, (cfg0.win 1).flush t = true ∧ i ∈ ((cfg0.win 1).blk t).view.set := by
  refine ⟨t0_0, flush0_1 t0_0, ?_⟩
  have h := ((cfg0.win 1).blk t0_0).view.emb_mem_set i
  rw [emb_out] at h
  exact h

/-- The squared-distance array as the second pipeline finds it: the first pipeline's payload of the launch embeddings. -/
theorem entry_v2 (m : (ℓ : Loc nD τ sig) → Buf (Elt Ideal) ℓ) (ρ : Dev nD → PrngReg) (c : Dev nD) :
    (V2 m ρ c main_v2 : S384x384.Idx → EReal) = k0_pay1 (F := Ideal) (m ((c.tc : Thread nD τ).loc main_arg0)) :=
  (W2_arr m ρ c 1).trans
    ((dat0 (V1 m ρ) c).arrAt_eq_of_cover 1 (k0_pay1 (F := Ideal) (m ((c.tc : Thread nD τ).loc main_arg0)))
      (fun t _ => flushed_eq m ρ c t) cover_out)

end Cert.KernelIdeal.RunValue
end
-- ==== Proof.Gram.lean ====
/-
  The first kernel's arithmetic, read at an entry: the squared pairwise distances in the Gram-matrix form.

  The kernel forms the matrix product of the array with its own transpose into a zero accumulator, the row sums of the
  squares as a column and (transposed) as a row, spreads both over the square, adds them, and subtracts twice the product.
  Entry (p, q) is therefore (Σ_k x(p,k)² + Σ_k x(q,k)²) − 2·Σ_k x(p,k)·x(q,k) on the extended reals, with the same
  grouping as the specification: each layout operation is read at an index, the lane sum and the matrix product are read
  as sums over the contracted coordinate, and nothing else is rearranged.
-/
import proofs.«111588_j85598698209924_1_alg».proof.Proof.Gen.KernelIdeal.Skeleton
import proofs.«111588_j85598698209924_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section
open scoped BigOperators
open Idealize.ShloMosaic Idealize.ShloMosaic.ValueIdx Cert.KernelIdeal Cert.KernelIdeal.Gen

namespace Cert.Triplet

/-! ## The layout operations at an index -/

/-- A vector of 384 entries cast to a column reads, at (p, 0), the vector at p. -/
theorem column_apply {α : Type} (v : S384.Idx → α) (p : Fin 384) (z : Fin 1) :
    shapeCast S384x1 v shapeCasts_S384_S384x1 (ix2 p z) = v (ix1 p) :=
  shapeCast_apply v shapeCasts_S384_S384x1 (ix2 p z) (ix1 p) (by
    have hz : z.val = 0 := by omega
    rw [Shape.rowMajor_val_two, Shape.rowMajor_val_one]
    show p.val = p.val * 1 + z.val
    rw [hz, Nat.mul_one, Nat.add_zero])

/-- The column transposed to a row reads, at (0, q), the column at (q, 0). -/
theorem column_to_row_apply {α : Type} (v : S384x1.Idx → α) (z : Fin 1) (q : Fin 384) :
    transpose S1x384 [1, 0] v transposes_S384x1_p1_0_S1x384 (ix2 z q) = v (ix2 q z) :=
  transpose_ix2_apply v transposes_S384x1_p1_0_S1x384 z q

/-- The column spread over the square reads, at (p, q), the column at (p, 0). -/
theorem spread_column_apply {α : Type} (v : S384x1.Idx → α) (p q : Fin 384) :
    broadcastTo S384x384 v broadcasts_S384x1_S384x384 (ix2 p q) = v (ix2 p (0 : Fin 1)) := by
  refine broadcastTo_apply v broadcasts_S384x1_S384x384 (ix2 p q) (ix2 p (0 : Fin 1)) fun ax => ?_
  match ax with
  | ⟨0, _⟩ =>
    show p.val = if (384 : Nat) = 1 then 0 else p.val
    rw [if_neg (by decide)]
  | ⟨1, _⟩ => rfl

/-- The row spread over the square reads, at (p, q), the row at (0, q). -/
theorem spread_row_apply {α : Type} (v : S1x384.Idx → α) (p q : Fin 384) :
    broadcastTo S384x384 v broadcasts_S1x384_S384x384 (ix2 p q) = v (ix2 (0 : Fin 1) q) :=
  broadcastTo_1b_ab_apply v broadcasts_S1x384_S384x384 p q

/-- The array transposed reads, at (k, q), the array at (q, k). -/
theorem transposed_apply {α : Type} (x : S384x1024.Idx → α) (k : Fin 1024) (q : Fin 384) :
    transpose S1024x384 [1, 0] x transposes_S384x1024_p1_0_S1024x384 (ix2 k q) = x (ix2 q k) :=
  transpose_ix2_apply x transposes_S384x1024_p1_0_S1024x384 k q

/-! ## The lane sum and the matrix product at an index -/

/-- The sum over the second axis, from the zero accumulator, reads at p the sum of row p. -/
theorem row_sum_apply (y : FVec Ideal S384x1024 .f32) (hφ : FKind.Formats .f32)
    (hacc : (0x00000000#32 : BitVec (FTy.bits .f32)) = FKind.add.neutral .f32 hφ) (p : Fin 384) :
    multiReduction (F := Ideal) .add [1] S384 y 0x00000000#32 reduces_S384x1024_S384 hφ hacc (ix1 p)
      = ∑ k : Fin 1024, y (ix2 p k) := by
  refine (Ideal.multiReduction_add_single y _ reduces_S384x1024_S384 hφ hacc (ix1 p)).trans ?_
  refine Finset.sum_congr rfl fun k _ => congrArg y (funext fun a => Fin.ext ?_)
  match a with
  | ⟨0, _⟩ => rfl
  | ⟨1, _⟩ => rfl

/-- The left operand's index of the product: its row is the output's row. -/
theorem product_left_row (i : S384x384.Idx) (c : dot_S384x1024_S1024x384_S384x384_1_0_0_1_n_n.contr.Idx) :
    (dot_S384x1024_S1024x384_S384x384_1_0_0_1_n_n.lhsIdx i c 0).val = (i 0).val := by
  unfold DotDims.lhsIdx
  rw [dif_neg (show ¬(0 : Fin S384x1024.rank) ∈ dot_S384x1024_S1024x384_S384x384_1_0_0_1_n_n.lhsBatch by decide),
    dif_pos (show (0 : Fin S384x1024.rank) ∈ dot_S384x1024_S1024x384_S384x384_1_0_0_1_n_n.lhsNonContracting by decide)]
  rfl

/-- … and its column is the contraction coordinate. -/
theorem product_left_col (i : S384x384.Idx) (c : dot_S384x1024_S1024x384_S384x384_1_0_0_1_n_n.contr.Idx) :
    (dot_S384x1024_S1024x384_S384x384_1_0_0_1_n_n.lhsIdx i c 1).val = (c ⟨0, by decide⟩).val :=
  dot_S384x1024_S1024x384_S384x384_1_0_0_1_n_n.lhsIdx_val_of_single rfl i c

/-- The right operand's index of the product: its row is the contraction coordinate. -/
theorem product_right_row (i : S384x384.Idx) (c : dot_S384x1024_S1024x384_S384x384_1_0_0_1_n_n.contr.Idx) :
    (dot_S384x1024_S1024x384_S384x384_1_0_0_1_n_n.rhsIdx i c 0).val = (c ⟨0, by decide⟩).val :=
  dot_S384x1024_S1024x384_S384x384_1_0_0_1_n_n.rhsIdx_val_of_single rfl i c

/-- … and its column is the output's column. -/
theorem product_right_col (i : S384x384.Idx) (c : dot_S384x1024_S1024x384_S384x384_1_0_0_1_n_n.contr.Idx) :
    (dot_S384x1024_S1024x384_S384x384_1_0_0_1_n_n.rhsIdx i c 1).val = (i 1).val := by
  unfold DotDims.rhsIdx
  rw [dif_neg (show ¬(1 : Fin S1024x384.rank) ∈ dot_S384x1024_S1024x384_S384x384_1_0_0_1_n_n.rhsBatch by decide),
    dif_pos (show (1 : Fin S1024x384.rank) ∈ dot_S384x1024_S1024x384_S384x384_1_0_0_1_n_n.rhsNonContracting by decide)]
  rfl

/-- The left operand's index of the product at (p, q) and contraction coordinate k is (p, k). -/
theorem product_left_index (p q : Fin 384) (k : Fin 1024) :
    dot_S384x1024_S1024x384_S384x384_1_0_0_1_n_n.lhsIdx (ix2 p q)
        ((contrEquiv1 dot_S384x1024_S1024x384_S384x384_1_0_0_1_n_n 1024 rfl rfl).symm k) = ix2 p k := by
  have hk := contrEquiv1_symm_val dot_S384x1024_S1024x384_S384x384_1_0_0_1_n_n 1024 rfl rfl k
  refine funext fun a => Fin.ext ?_
  match a with
  | ⟨0, _⟩ => exact product_left_row _ _
  | ⟨1, _⟩ => exact (product_left_col _ _).trans hk

/-- The right operand's index of the product at (p, q) and contraction coordinate k is (k, q). -/
theorem product_right_index (p q : Fin 384) (k : Fin 1024) :
    dot_S384x1024_S1024x384_S384x384_1_0_0_1_n_n.rhsIdx (ix2 p q)
        ((contrEquiv1 dot_S384x1024_S1024x384_S384x384_1_0_0_1_n_n 1024 rfl rfl).symm k) = ix2 k q := by
  have hk := contrEquiv1_symm_val dot_S384x1024_S1024x384_S384x384_1_0_0_1_n_n 1024 rfl rfl k
  refine funext fun a => Fin.ext ?_
  match a with
  | ⟨0, _⟩ => exact (product_right_row _ _).trans hk
  | ⟨1, _⟩ => exact product_right_col _ _

/-- The matrix product into the zero accumulator reads, at (p, q), the sum over k of a(p,k)·b(k,q). -/
theorem product_apply (a : FVec Ideal S384x1024 .bf16) (b : FVec Ideal S1024x384 .bf16) (p q : Fin 384) :
    matmul (F := Ideal) dot_S384x1024_S1024x384_S384x384_1_0_0_1_n_n none a b
        (constant (F := Ideal) S384x384 .f32 0x00000000#32) (ix2 p q)
      = ∑ k : Fin 1024, a (ix2 p k) * b (ix2 k q) := by
  refine (Ideal.matmul_constant_zero_apply dot_S384x1024_S1024x384_S384x384_1_0_0_1_n_n none a b (ix2 p q)).trans ?_
  rw [← Equiv.sum_comp (contrEquiv1 dot_S384x1024_S1024x384_S384x384_1_0_0_1_n_n 1024 rfl rfl).symm]
  refine Finset.sum_congr rfl fun k _ => ?_
  rw [product_left_index p q k, product_right_index p q k]

/-! ## The payload -/

/-- The first kernel's stored value is the squared pairwise distances of the specification. -/
theorem gram_payload (x0 : Vec Ideal S384x1024 .f32) : k0_pay1 (F := Ideal) x0 = dist x0 := by
  funext j
  obtain ⟨p, q, rfl⟩ : ∃ (p : Fin 384) (q : Fin 384), j = ix2 p q := ⟨j 0, j 1, eq_ix2 j⟩
  -- the row sums of the squares, as the kernel computes them
  have hsq : ∀ r : Fin 384,
      shapeCast S384x1 (multiReduction (F := Ideal) .add [1] S384 (mulf x0 x0) 0x00000000#32 reduces_S384x1024_S384 (.inl rfl) rfl)
          shapeCasts_S384_S384x1 (ix2 r (0 : Fin 1)) = ∑ k : Fin 1024, x0 (ix2 r k) * x0 (ix2 r k) := fun r =>
    (column_apply _ r 0).trans (row_sum_apply (mulf x0 x0) _ _ r)
  unfold k0_pay1 dist
  refine congrArg₂ (· - ·) (congrArg₂ (· + ·) ?_ ?_) (congrArg₂ (· * ·) rfl ?_)
  · exact (spread_column_apply _ p q).trans (hsq p)
  · exact (spread_row_apply _ p q).trans ((column_to_row_apply _ 0 q).trans (hsq q))
  · refine (product_apply _ _ p q).trans (Finset.sum_congr rfl fun k _ => ?_)
    exact congrArg (x0 (ix2 p k) * ·) (transposed_apply _ k q)

end Cert.Triplet

end
-- ==== Proof.ChainSums.lean ====
/-
  Running sums from zero on the extended reals.

  A chain that starts at the word 0.0 and adds one term per step holds, after its last step, the sum of the terms: for
  three steps by unfolding, and for 48 steps by induction on the step (the chain after step n is the sum of the first
  n + 1 terms). Addition on the extended reals is a commutative monoid, and nothing else is used.
-/
import proofs.«111588_j85598698209924_1_alg».proof.Proof.Spec
import Idealize.ShloMosaic.PureOps.Ideal.Laws

noncomputable section
open scoped BigOperators
open Idealize.ShloMosaic Cert.Triplet

namespace Cert.Triplet

/-- The word 0.0 is the extended real 0. -/
theorem w0_eq_zero : w0 = 0 := Ideal.ofBits_zero_f32

/-- Three terms added in order to the word 0.0 are their sum. -/
theorem three_tiles (g : Fin 3 → EReal) : ((w0 + g 0) + g 1) + g 2 = ∑ c : Fin 3, g c := by
  rw [w0_eq_zero, zero_add, Fin.sum_univ_three]

/-- A chain from the word 0.0 that adds the term of step n at step n holds, after step n, the sum of the first n + 1
    terms. -/
theorem ordered_sum_upto (f : Fin 48 → EReal) (ch : (n : ℕ) → n < 48 → EReal)
    (h0 : ∀ h : 0 < 48, ch 0 h = w0 + f ⟨0, h⟩)
    (hs : ∀ (n : ℕ) (h : n + 1 < 48), ch (n + 1) h = ch n (Nat.lt_of_succ_lt h) + f ⟨n + 1, h⟩) :
    ∀ (n : ℕ) (h : n < 48), ch n h = ∑ s : Fin (n + 1), f ⟨s.val, by have := s.isLt; omega⟩ := by
  intro n
  induction n with
  | zero =>
    intro h
    rw [h0 h, w0_eq_zero, zero_add, Fin.sum_univ_one]
    rfl
  | succ m ih =>
    intro h
    rw [hs m h, ih (Nat.lt_of_succ_lt h), Fin.sum_univ_castSucc (n := m + 1)]
    rfl

/-- After its 48 steps the chain holds the sum of the 48 terms. -/
theorem ordered_sum (f : Fin 48 → EReal) (ch : (n : ℕ) → n < 48 → EReal)
    (h0 : ∀ h : 0 < 48, ch 0 h = w0 + f ⟨0, h⟩)
    (hs : ∀ (n : ℕ) (h : n + 1 < 48), ch (n + 1) h = ch n (Nat.lt_of_succ_lt h) + f ⟨n + 1, h⟩) :
    ch 47 (by decide) = ∑ t : Fin 48, f t :=
  ordered_sum_upto f ch h0 hs 47 (by decide)

end Cert.Triplet

end
-- ==== Proof.RefDist.lean ====
/-
  The reference program's distance array and hinge term, read at an entry.

  The reference squares the array, sums each row from the constant 0, spreads the row sums over the square as a column
  and as a row, adds them, and subtracts 2.0 times the product of the array with its transpose: entry (p, q) is
  (Σ_k x(p,k)² + Σ_k x(q,k)²) − 2·Σ_k x(p,k)·x(q,k) on the extended reals, the specification's distance with the same
  grouping. Over the cube of triplets it then takes the maximum of (D(a,p) − D(a,n)) + 1.0 and 0.0, the specification's
  hinge term of the distance array D, whatever D is.
-/
import proofs.«111588_j85598698209924_1_alg».proof.Proof.RefReadP
import proofs.«111588_j85598698209924_1_alg».proof.Proof.Spec
import Idealize.ShloMosaic.Lib.ValueIdx
import Idealize.ShloMosaic.PureOps.Ideal.Laws

noncomputable section
open scoped BigOperators
open Idealize.ShloMosaic Idealize.ShloMosaic.ValueIdx Cert.ReferenceIdeal Cert.ReferenceIdeal.ReadP Cert.Triplet

namespace Cert.Triplet.Ref

/-! ## The distance array -/

/-- The sum of the squares of row r, as the reference computes it: the constant 0 plus the sum over the row. -/
theorem ref_row_sum (x0 : (⟨S384x1024, .f32⟩ : BufTy).Contents (Elt Ideal)) (r : Fin 384) :
    val_main_v1 (F := Ideal) x0 (ix1 r) = ∑ k : Fin 1024, x0 (ix2 r k) * x0 (ix2 r k) := by
  refine (val_main_v1_apply x0 (ix1 r)).trans ?_
  show Ideal.ofBits .f32 0x00000000#32 + _ = _
  rw [Ideal.ofBits_zero_f32, zero_add]
  refine Finset.sum_congr rfl fun k _ => ?_
  have e : idx_main_v1 (ix1 r) k = ix2 r k :=
    funext fun d => Fin.ext (by match d with | ⟨0, _⟩ => rfl | ⟨1, _⟩ => rfl)
  rw [e]
  rfl

/-- The row sums spread as a column: entry (p, q) is the sum of row p. -/
theorem ref_spread_column (x0 : (⟨S384x1024, .f32⟩ : BufTy).Contents (Elt Ideal)) (p q : Fin 384) :
    val_main_v4 (F := Ideal) x0 (ix2 p q) = ∑ k : Fin 1024, x0 (ix2 p k) * x0 (ix2 p k) := by
  refine (val_main_v4_apply x0 _).trans ((val_main_v2_apply x0 _).trans ?_)
  have e : idx_main_v2 (idx_main_v4 (ix2 p q)) = ix1 p :=
    funext fun d => Fin.ext (by match d with | ⟨0, _⟩ => rfl)
  rw [e]
  exact ref_row_sum x0 p

/-- The row sums spread as a row: entry (p, q) is the sum of row q. -/
theorem ref_spread_row (x0 : (⟨S384x1024, .f32⟩ : BufTy).Contents (Elt Ideal)) (p q : Fin 384) :
    val_main_v5 (F := Ideal) x0 (ix2 p q) = ∑ k : Fin 1024, x0 (ix2 q k) * x0 (ix2 q k) := by
  refine (val_main_v5_apply x0 _).trans ((val_main_v3_apply x0 _).trans ?_)
  have e : idx_main_v3 (idx_main_v5 (ix2 p q)) = ix1 q :=
    funext fun d => Fin.ext (by match d with | ⟨0, _⟩ => rfl)
  rw [e]
  exact ref_row_sum x0 q

/-- The product of the array with its transpose: entry (p, q) is the sum over k of x(p,k)·x(q,k). -/
theorem ref_product (x0 : (⟨S384x1024, .f32⟩ : BufTy).Contents (Elt Ideal)) (p q : Fin 384) :
    val_main_v8 (F := Ideal) x0 (ix2 p q) = ∑ k : Fin 1024, x0 (ix2 p k) * x0 (ix2 q k) := by
  refine (val_main_v8_apply x0 _).trans (Finset.sum_congr rfl fun k _ => ?_)
  have el : lidx_main_v8 (ix2 p q) k = ix2 p k :=
    funext fun d => Fin.ext (by match d with | ⟨0, _⟩ => rfl | ⟨1, _⟩ => rfl)
  have er : idx_main_v7 (ridx_main_v8 (ix2 p q) k) = ix2 q k :=
    funext fun d => Fin.ext (by match d with | ⟨0, _⟩ => rfl | ⟨1, _⟩ => rfl)
  rw [val_main_v7_apply, el, er]

/-- The spread constant 2.0 is the specification's word at every entry. -/
theorem ref_two (i : S384x384.Idx) : val_main_v9 (F := Ideal) i = w2 :=
  (val_main_v9_apply i).trans rfl

/-- The reference's distance array is the squared pairwise distances of the specification. -/
theorem ref_dist (x0 : (⟨S384x1024, .f32⟩ : BufTy).Contents (Elt Ideal)) : val_main_v11 (F := Ideal) x0 = dist x0 := by
  funext j
  obtain ⟨p, q, rfl⟩ : ∃ (p : Fin 384) (q : Fin 384), j = ix2 p q := ⟨j 0, j 1, eq_ix2 j⟩
  rw [val_main_v11_apply, val_main_v6_apply, val_main_v10_apply]
  unfold dist
  exact congrArg₂ (· - ·) (congrArg₂ (· + ·) (ref_spread_column x0 p q) (ref_spread_row x0 p q))
    (congrArg₂ (· * ·) (ref_two _) (ref_product x0 p q))

/-! ## The hinge term -/

/-- The hinge term of the reference at the triplet (a, p, n), over its own distance array. -/
theorem ref_hinge (x0 : (⟨S384x1024, .f32⟩ : BufTy).Contents (Elt Ideal)) (a p n : Fin 384) :
    val_main_v37 (F := Ideal) x0 (ix3 a p n) = hinge (val_main_v11 (F := Ideal) x0) a p n := by
  have e1 : val_main_v32 (F := Ideal) x0 (ix3 a p n) = val_main_v11 (F := Ideal) x0 (ix2 a p) :=
    (val_main_v32_apply x0 _).trans ((val_main_v30_apply x0 _).trans
      (congrArg (val_main_v11 (F := Ideal) x0)
        (funext fun d => Fin.ext (by match d with | ⟨0, _⟩ => rfl | ⟨1, _⟩ => rfl))))
  have e2 : val_main_v33 (F := Ideal) x0 (ix3 a p n) = val_main_v11 (F := Ideal) x0 (ix2 a n) :=
    (val_main_v33_apply x0 _).trans ((val_main_v31_apply x0 _).trans
      (congrArg (val_main_v11 (F := Ideal) x0)
        (funext fun d => Fin.ext (by match d with | ⟨0, _⟩ => rfl | ⟨1, _⟩ => rfl))))
  have e3 : val_main_v35 (F := Ideal) (ix3 a p n) = w1 := (val_main_v35_apply _).trans rfl
  have e4 : val_main_call0_v0 (F := Ideal) (ix3 a p n) = w0 := (val_main_call0_v0_apply _).trans rfl
  rw [val_main_v37_apply, val_main_v36_apply, val_main_v34_apply]
  unfold hinge
  exact congrArg₂ max (congrArg₂ (· + ·) (congrArg₂ (· - ·) e1 e2) e3) e4

end Cert.Triplet.Ref

end
-- ==== Proof.RefMean.lean ====
import proofs.«111588_j85598698209924_1_alg».proof.Proof.RefReadP
import proofs.«111588_j85598698209924_1_alg».proof.Proof.Spec
import proofs.«111588_j85598698209924_1_alg».proof.Proof.SpecSums
import Idealize.ShloMosaic.Lib.ValueIdx

noncomputable section
open scoped BigOperators
open Idealize.ShloMosaic Idealize.ShloMosaic.ValueIdx Cert.ReferenceIdeal Cert.ReferenceIdeal.ReadP Cert.Triplet

namespace Cert.Triplet.Ref

/-! ## The reference's total and mean

The reference sums, over every triplet (a, p, n), the hinge loss where the triplet's mask bit is set and 0.0 where it is
not, starting from 0.0; and divides that total by the count of set bits converted to a float, unless the count is not
positive, where it answers 0.0. -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The reference's masked sum of hinge losses is the specification's total, given what the mask and the hinge
    arrays hold triplet by triplet. -/
theorem ref_total_of (x0 : (⟨S384x1024, .f32⟩ : BufTy).Contents (Elt Ideal)) (x1 : (⟨S384, .i32⟩ : BufTy).Contents (Elt Ideal))
    (D : (⟨2, ![384, 384]⟩ : Shape).Idx → EReal)
    (hmask : ∀ a p n : Fin 384, val_main_v29 (F := Ideal) x1 (ix3 a p n) = if valid x1 a p n then 1#1 else 0#1)
    (hhinge : ∀ a p n : Fin 384, val_main_v37 (F := Ideal) x0 (ix3 a p n) = hinge D a p n) :
    val_main_v41 (F := Ideal) x0 x1 = fun _ => total D x1 := by
  funext i
  have hz : (FloatOps.ofBits (F := Ideal) .f32 0x00000000#32 : EReal) = 0 := Ideal.ofBits_zero_f32
  rw [val_main_v41_apply, val_main_cst_3_apply, hz, zero_add]
  show ∑ j : (⟨3, ![384, 384, 384]⟩ : Shape).Idx, val_main_v40 (F := Ideal) x0 x1 j = total D x1
  rw [sum_idx3]
  unfold total
  refine Finset.sum_congr rfl fun a _ => Finset.sum_congr rfl fun p _ => Finset.sum_congr rfl fun n _ => ?_
  rw [val_main_v40_apply, hmask, hhinge, val_main_call1_v0_apply, val_main_cst_2_apply, hz]
  by_cases h : valid x1 a p n
  · rw [if_pos h, if_pos h, select_one]
  · rw [if_neg h, if_neg h, select_zero]

/-- The reference's first result is the specification's mean, given the count word and the total. -/
theorem ref_mean_of (x0 : (⟨S384x1024, .f32⟩ : BufTy).Contents (Elt Ideal)) (x1 : (⟨S384, .i32⟩ : BufTy).Contents (Elt Ideal))
    (D : (⟨2, ![384, 384]⟩ : Shape).Idx → EReal)
    (hcount : val_main_v39 (F := Ideal) x1 = countOut x1)
    (htotal : val_main_v41 (F := Ideal) x0 x1 = fun _ => total D x1) :
    val_main_v45 (F := Ideal) x0 x1 = meanOut D x1 := by
  funext i
  have hN : count x1 < 2 ^ 31 := count_lt x1
  rw [val_main_v45_apply, val_main_v42_apply, val_main_v44_apply, val_main_v43_apply, val_main_c_4_apply,
    val_main_cst_5_apply, hcount, htotal]
  show Scalar.select (IntOp.cmpi .sgt (BitVec.ofNat 32 (count x1)) 0#32)
      (FloatOps.hostDivf (F := Ideal) (φ := .f32) (total D x1) (FloatOps.sitofp (F := Ideal) .f32 (BitVec.ofNat 32 (count x1)))) w0
    = Scalar.select (FloatOps.cmpf (F := Ideal) (φ := .f32) .ogt ((count x1 : ℕ) : EReal) w0)
      (FloatOps.hostDivf (F := Ideal) (φ := .f32) (total D x1) ((count x1 : ℕ) : EReal)) w0
  rw [sitofp_ofNat _ hN, cmp_ogt_eq_sgt _ hN]

end Cert.Triplet.Ref
end
-- ==== Proof.RefCount.lean ====
/-
  The reference's validity mask and its count of valid triplets.

  The mask is, at (a, p, n), the one-bit word of 'a and p carry the same label, a comes before p, and n carries another
  label': the conjunction of an equality of labels, a signed comparison of two coordinates (both below 384, so the signed
  comparison of their 32-bit words is the comparison of the numbers) and the negation of another equality of labels. The
  count is the reduction by addition, from zero, of the mask widened to 32 bits over every index: a fold of 0/1 words,
  which is the number of ones as a 32-bit word; the ones are the valid triplets.
-/
import proofs.«111588_j85598698209924_1_alg».proof.Proof.RefReadP
import proofs.«111588_j85598698209924_1_alg».proof.Proof.Spec
import proofs.«111588_j85598698209924_1_alg».proof.Proof.SpecSums
import Idealize.ShloMosaic.PureOps.Reduce
import Idealize.ShloMosaic.Lib.IndicatorCount

noncomputable section

open scoped BigOperators
open Idealize.ShloMosaic Idealize.ShloMosaic.ValueIdx Cert.ReferenceIdeal Cert.ReferenceIdeal.ReadP Cert.Triplet

namespace Cert.Triplet.Ref

/-- The equality of the labels of rows a and p, as a one-bit word. -/
theorem eqLab_at (x1 : (⟨S384, .i32⟩ : BufTy).Contents (Elt Ideal)) (a p : Fin 384) :
    val_main_v16 (F := Ideal) x1 (ix2 a p) = BitVec.ofBool (decide (x1 (ix1 a) = x1 (ix1 p))) := by
  have ea : idx_main_v12 (idx_main_v14 (ix2 a p)) = ix1 a := funext fun d => by match d with | ⟨0, _⟩ => rfl
  have ep : idx_main_v13 (idx_main_v15 (ix2 a p)) = ix1 p := funext fun d => by match d with | ⟨0, _⟩ => rfl
  rw [val_main_v16_apply, val_main_v14_apply, val_main_v12_apply, val_main_v15_apply, val_main_v13_apply, ea, ep]
  show BitVec.ofBool (x1 (ix1 a) == x1 (ix1 p)) = _
  rw [beq_eq_decide]

/-- The signed comparison of the two coordinates' words is the comparison of the coordinates. -/
theorem before_at (a p : Fin 384) :
    val_main_v22 (F := Ideal) (ix2 a p) = BitVec.ofBool (decide (a.val < p.val)) := by
  rw [val_main_v22_apply, val_main_v20_apply, val_main_v18_apply, val_main_v17_apply, val_main_v21_apply,
    val_main_v19_apply, val_main_v17_apply]
  show BitVec.ofBool ((BitVec.ofNat 32 a.val).slt (BitVec.ofNat 32 p.val)) = _
  have ha := a.isLt
  have hp := p.isLt
  rw [BitVec.slt, toInt_ofNat_lt _ (by omega), toInt_ofNat_lt _ (by omega)]
  congr 1
  exact decide_eq_decide.mpr Int.ofNat_lt

/-- The conjunction of two one-bit conditions and the negation of a third is one exactly when the first two hold and the
    third does not. -/
theorem mask_word (P Q R : Prop) [Decidable P] [Decidable Q] [Decidable R] :
    IntOp.andi (IntOp.andi (BitVec.ofBool (decide P)) (BitVec.ofBool (decide Q))) (~~~ BitVec.ofBool (decide R)) = 1#1
      ↔ (P ∧ Q) ∧ ¬ R := by
  by_cases hP : P <;> by_cases hQ : Q <;> by_cases hR : R <;> simp [hP, hQ, hR] <;> decide

theorem ref_mask (x1 : (⟨S384, .i32⟩ : BufTy).Contents (Elt Ideal)) (a p n : Fin 384) :
    val_main_v29 (F := Ideal) x1 (ix3 a p n) = if valid x1 a p n then 1#1 else 0#1 := by
  have e1 : idx_main_v24 (idx_main_v27 (ix3 a p n)) = ix2 a p :=
    funext fun d => by match d with | ⟨0, _⟩ => rfl | ⟨1, _⟩ => rfl
  have e2 : idx_main_v26 (idx_main_v28 (ix3 a p n)) = ix2 a n :=
    funext fun d => by match d with | ⟨0, _⟩ => rfl | ⟨1, _⟩ => rfl
  rw [val_main_v29_apply, val_main_v27_apply, val_main_v24_apply, val_main_v23_apply, val_main_v28_apply,
    val_main_v26_apply, val_main_v25_apply, e1, e2, eqLab_at, eqLab_at, before_at]
  by_cases hv : valid x1 a p n
  · rw [if_pos hv]
    exact (mask_word _ _ _).2 hv
  · rw [if_neg hv]
    exact eq_zero_of_ne_one fun h => hv ((mask_word _ _ _).1 h)

/-- A rank-3 index set is the triple product of its coordinates' ranges. -/
def maskIdxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem mask_sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (maskIdxEquiv3 (n0 := n0) (n1 := n1) (n2 := n2)).symm f, Fintype.sum_prod_type]
  refine Finset.sum_congr rfl fun a _ => ?_
  rw [Fintype.sum_prod_type]
  rfl

/-- The number of indices at which the mask is one is the number of valid triplets. -/
theorem card_mask (x1 : (⟨S384, .i32⟩ : BufTy).Contents (Elt Ideal)) :
    (Finset.univ.filter fun i : S384x384x384.Idx => val_main_v29 (F := Ideal) x1 i = 1#1).card = count x1 := by
  rw [Finset.card_filter, mask_sum_idx3]
  unfold count
  refine Finset.sum_congr rfl fun a _ => Finset.sum_congr rfl fun p _ => Finset.sum_congr rfl fun n _ => ?_
  rw [ref_mask]
  by_cases h : valid x1 a p n
  · rw [if_pos h, if_pos rfl, if_pos h]
  · rw [if_neg h, if_neg (by decide), if_neg h]

/-- A reduction of every axis into a scalar, by a commutative and associative operation, is the fold over every index of
    the operand. -/
theorem reduce_scalar_eq_fold {s : Shape} {axes : List (Fin s.rank)} {α : Type} (f : α → α → α) [Std.Commutative f]
    [Std.Associative f] (x : s.Idx → α) (init : (⟨0, ![]⟩ : Shape).Idx → α) (h : s.ReducesTo axes ⟨0, ![]⟩)
    (hu : 0 < (⟨0, ![]⟩ : Shape).numel) (j : (⟨0, ![]⟩ : Shape).Idx) :
    Host.reduce f x init h hu j = Finset.univ.fold f (init (Shape.Idx.first hu)) x := by
  rw [Host.reduce_eq_fold]
  congr 1
  exact Finset.filter_true_of_mem fun i _ => funext fun d => d.elim0

theorem ref_count (x1 : (⟨S384, .i32⟩ : BufTy).Contents (Elt Ideal)) : val_main_v39 (F := Ideal) x1 = countOut x1 := by
  funext j
  unfold val_main_v39 countOut
  rw [reduce_scalar_eq_fold]
  show Finset.univ.fold IntOp.addi (0#32) (fun i => (val_main_v29 (F := Ideal) x1 i).setWidth 32) = _
  rw [IndicatorCount.fold_addi_setWidth_eq_card, card_mask]

end Cert.Triplet.Ref

end
-- ==== Proof.Final.lean ====
/-
  The two programs' results, each as the specification's two functions of the argument arrays.

  The kernel: its first pipeline leaves the squared pairwise distances of the embeddings; its second pipeline's two
  accumulators, written back after the last of the 48 grid points, hold the ordered sums over the anchor tiles of the tiles'
  totals and counts, which are the specification's total and count; the host operations after it form the mean and the count word.
  The reference: its operations compute the same distances, the same mask and hinge losses, and reduce them in one sum each.
-/
import proofs.«111588_j85598698209924_1_alg».proof.Proof.Region1
import proofs.«111588_j85598698209924_1_alg».proof.Proof.KernelRun
import proofs.«111588_j85598698209924_1_alg».proof.Proof.Entry
import proofs.«111588_j85598698209924_1_alg».proof.Proof.Gram
import proofs.«111588_j85598698209924_1_alg».proof.Proof.ChainSums
import proofs.«111588_j85598698209924_1_alg».proof.Proof.SpecSums
import proofs.«111588_j85598698209924_1_alg».proof.Proof.RefRunP
import proofs.«111588_j85598698209924_1_alg».proof.Proof.RefReadP
import proofs.«111588_j85598698209924_1_alg».proof.Proof.RefDist
import proofs.«111588_j85598698209924_1_alg».proof.Proof.RefMean
import proofs.«111588_j85598698209924_1_alg».proof.Proof.RefCount

noncomputable section

open scoped BigOperators
open Idealize.ShloMosaic Idealize.ShloMosaic.TcCoe Idealize.ShloMosaic.ValueIdx Idealize.SL.Sem
open Cert.Triplet

/-! ## The kernel -/

namespace Cert.KernelIdeal.PointValue

open Cert.KernelIdeal Cert.KernelIdeal.Gen Cert.KernelIdeal.RunValue

section Arrays

variable (V : (c : Dev nD) → (b : Ref sig .tc) → Buf (Elt Ideal) ((c : Thread nD τ).loc b)) (c : Dev nD)
  (D : (⟨2, ![384, 384]⟩ : Shape).Idx → EReal) (lab : (⟨1, ![384]⟩ : Shape).Idx → BitVec 32)
  (hD : (V c main_v2 : S384x384.Idx → EReal) = D)
  (hv0 : ∀ a : Fin 384, (V c main_v0 : S384x1.Idx → BitVec 32) (ix2 a (0 : Fin 1)) = lab (ix1 a))
  (hv1 : ∀ n : Fin 384, (V c main_v1 : S1x384.Idx → BitVec 32) (ix2 (0 : Fin 1) n) = lab (ix1 n))

theorem last_lt : 47 < cfg1.N := by rw [show cfg1.N = 48 from N_1]; decide

/-- The ordered sum of the point totals over the 48 anchor tiles is the specification's total. -/
theorem chainT_last : chainT D lab 47 last_lt = total D lab := by
  have hN : cfg1.N = 48 := N_1
  have e := ordered_sum (fun t => pointTotal D lab t) (fun n h => chainT D lab n (by omega)) (fun h => rfl) (fun n h => rfl)
  refine e.trans ?_
  rw [total_eq_tiles]
  exact Finset.sum_congr rfl fun t _ => three_tiles (fun k => tileTotal D lab t k)

/-- The ordered sum of the point counts is the specification's count. -/
theorem chainC_last : chainC lab 47 last_lt = ((count lab : ℕ) : EReal) := by
  have hN : cfg1.N = 48 := N_1
  have e := ordered_sum (fun t => pointCount lab t) (fun n h => chainC lab n (by omega)) (fun h => rfl) (fun n h => rfl)
  refine e.trans ?_
  rw [count_eq_tiles]
  exact Finset.sum_congr rfl fun t _ => three_tiles (fun k => tileCount lab t k)

/-- The accumulators' one block is their whole [1,1] array. -/
theorem emb3 (t : Fin cfg1.N) (j : S1x1.Idx) : ((cfg1.win 3).blk t).view.emb j = j := by
  obtain ⟨-, -, -, ⟨e0, e1⟩, -⟩ := block_index1 t
  funext a; apply Fin.ext
  match a with
  | ⟨0, _⟩ => show win1_3.index t (0 : Fin 2) * 1 + 1 * (j 0).val = (j 0).val; omega
  | ⟨1, _⟩ => show win1_3.index t (1 : Fin 2) * 1 + 1 * (j 1).val = (j 1).val; omega
theorem emb4 (t : Fin cfg1.N) (j : S1x1.Idx) : ((cfg1.win 4).blk t).view.emb j = j := by
  obtain ⟨-, -, -, -, ⟨e0, e1⟩⟩ := block_index1 t
  funext a; apply Fin.ext
  match a with
  | ⟨0, _⟩ => show win1_4.index t (0 : Fin 2) * 1 + 1 * (j 0).val = (j 0).val; omega
  | ⟨1, _⟩ => show win1_4.index t (1 : Fin 2) * 1 + 1 * (j 1).val = (j 1).val; omega

include hD hv0 hv1 in
/-- The one write-back of the first accumulator, after the last point, writes the specification's total. -/
theorem flushed3 (t : Fin cfg1.N) (hf : (cfg1.win 3).flush t = true) :
    (dat1 V c).flushed 3 t = ((cfg1.win 3).blk t).view.read (Elt Ideal) (fun _ => total D lab) := by
  have hN : cfg1.N = 48 := N_1
  have h47 : t.val = 47 := by have := (flush1_3 t).mp hf; have := t.isLt; omega
  obtain rfl : t = ⟨47, last_lt⟩ := Fin.ext h47
  show (cfg1.win 3).cut (grid1.coords ⟨47, last_lt⟩) ((dat1 V c).after 3 ⟨47, last_lt⟩) = _
  rw [after1_3, outsAt_eq V c D lab hD hv0 hv1]
  show (cfg1.win 3).cut (grid1.coords ⟨47, last_lt⟩) (fun _ => chainT D lab 47 last_lt) = _
  rw [chainT_last]
  rfl

include hD hv0 hv1 in
theorem flushed4 (t : Fin cfg1.N) (hf : (cfg1.win 4).flush t = true) :
    (dat1 V c).flushed 4 t = ((cfg1.win 4).blk t).view.read (Elt Ideal) (fun _ => ((count lab : ℕ) : EReal)) := by
  have hN : cfg1.N = 48 := N_1
  have h47 : t.val = 47 := by have := (flush1_4 t).mp hf; have := t.isLt; omega
  obtain rfl : t = ⟨47, last_lt⟩ := Fin.ext h47
  show (cfg1.win 4).cut (grid1.coords ⟨47, last_lt⟩) ((dat1 V c).after 4 ⟨47, last_lt⟩) = _
  rw [after1_4, outsAt_eq V c D lab hD hv0 hv1]
  show (cfg1.win 4).cut (grid1.coords ⟨47, last_lt⟩) (fun _ => chainC lab 47 last_lt) = _
  rw [chainC_last]
  rfl

theorem cover3 (i : S1x1.Idx) : ∃ t : Fin cfg1.N, (cfg1.win 3).flush t = true ∧ i ∈ ((cfg1.win 3).blk t).view.set := by
  refine ⟨⟨47, last_lt⟩, (flush1_3 _).mpr rfl, ?_⟩
  have h := ((cfg1.win 3).blk ⟨47, last_lt⟩).view.emb_mem_set i
  rw [emb3] at h
  exact h
theorem cover4 (i : S1x1.Idx) : ∃ t : Fin cfg1.N, (cfg1.win 4).flush t = true ∧ i ∈ ((cfg1.win 4).blk t).view.set := by
  refine ⟨⟨47, last_lt⟩, (flush1_4 _).mpr rfl, ?_⟩
  have h := ((cfg1.win 4).blk ⟨47, last_lt⟩).view.emb_mem_set i
  rw [emb4] at h
  exact h

include hD hv0 hv1 in
/-- The two arrays the second pipeline leaves. -/
theorem final3 : (dat1 V c).arrAt 3 cfg1.N = fun _ => total D lab :=
  (dat1 V c).arrAt_eq_of_cover 3 (fun _ => total D lab) (fun t hf => flushed3 V c D lab hD hv0 hv1 t hf) cover3
include hD hv0 hv1 in
theorem final4 : (dat1 V c).arrAt 4 cfg1.N = fun _ => ((count lab : ℕ) : EReal) :=
  (dat1 V c).arrAt_eq_of_cover 4 (fun _ => ((count lab : ℕ) : EReal)) (fun t hf => flushed4 V c D lab hD hv0 hv1 t hf) cover4

end Arrays

end Cert.KernelIdeal.PointValue

/-! ## The kernel's run, read -/

namespace Cert.KernelIdeal.RunValue

open Cert.KernelIdeal Cert.KernelIdeal.Gen Cert.KernelIdeal.PointValue

variable (m : (ℓ : Loc nD τ sig) → Buf (Elt Ideal) ℓ) (ρ : Dev nD → PrngReg)

/-- The launch embeddings and labels. -/
abbrev argX (c : Dev nD) : (⟨2, ![384, 1024]⟩ : Shape).Idx → EReal := m ((c.tc : Thread nD τ).loc main_arg0)
abbrev argL (c : Dev nD) : (⟨1, ![384]⟩ : Shape).Idx → BitVec 32 := m ((c.tc : Thread nD τ).loc main_arg1)

/-- After the second pipeline its two result arrays hold the specification's total and count of the launch arrays. -/
theorem sums (c : Dev nD) :
    (∀ j : S1x1.Idx, (W3 m ρ c (Proc.devRef .tc main_v3_0) : S1x1.Idx → EReal) j = total (dist (argX m c)) (argL m c))
    ∧ (∀ j : S1x1.Idx, (W3 m ρ c (Proc.devRef .tc main_v3_1) : S1x1.Idx → EReal) j = ((count (argL m c) : ℕ) : EReal)) := by
  have hD : (V2 m ρ c main_v2 : S384x384.Idx → EReal) = dist (argX m c) := (entry_v2 m ρ c).trans (gram_payload _)
  have e3 := (W3_arr m ρ c 3).trans (final3 (V2 m ρ) c (dist (argX m c)) (argL m c) hD (entry_v0 m ρ c) (entry_v1 m ρ c))
  have e4 := (W3_arr m ρ c 4).trans (final4 (V2 m ρ) c (dist (argX m c)) (argL m c) hD (entry_v0 m ρ c) (entry_v1 m ρ c))
  exact ⟨fun j => congrFun e3 j, fun j => congrFun e4 j⟩

/-- The idealized kernel's run: its two results are the specification's mean and count word of the launch arrays. -/
theorem kernel_run : θ_run defs (onTc (τ := τ) (main (F := Ideal))) ⟨m, fun _ => 0, ρ⟩ (fun r => ∀ c : Dev nD,
      r.2.mem ((c.tc : Thread nD τ).loc main_v8) = meanOut (dist (argX m c)) (argL m c)
      ∧ r.2.mem ((c.tc : Thread nD τ).loc main_v9) = countOut (argL m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨h8, h9, ha0, ha1⟩ := h c
    obtain ⟨s3, s4⟩ := sums m ρ c
    refine ⟨h8.trans ?_, h9.trans ?_, ha0, ha1⟩
    · exact (tail_v8 m ρ c _ _ s3 s4).trans rfl
    · exact (tail_v9 m ρ c _ s4).trans (funext fun _ => fptosi_natCast _ (count_lt _)))
    (run_values m ρ)

end Cert.KernelIdeal.RunValue

/-! ## The reference's run, read -/

namespace Cert.ReferenceIdeal.RefValue

open Cert.ReferenceIdeal Cert.ReferenceIdeal.Gen Cert.ReferenceIdeal.ReadP Cert.Triplet.Ref

variable (m : (ℓ : Loc nD τ sig) → Buf (Elt Ideal) ℓ) (ρ : Dev nD → PrngReg)

/-- The reference's mean is the specification's: the same distances, mask and hinge losses, one sum each. -/
theorem mean_eq (x0 : (⟨S384x1024, .f32⟩ : BufTy).Contents (Elt Ideal)) (x1 : (⟨S384, .i32⟩ : BufTy).Contents (Elt Ideal)) :
    val_main_v45 (F := Ideal) x0 x1 = meanOut (dist x0) x1 :=
  ref_mean_of x0 x1 (dist x0) (ref_count x1)
    (ref_total_of x0 x1 (dist x0) (ref_mask x1) (fun a p n => by rw [ref_hinge, ref_dist]))

/-- The idealized reference's run: its two results are the specification's mean and count word of the launch arrays. -/
theorem ref_run : θ_run defs (onTc (τ := τ) (main (F := Ideal))) ⟨m, fun _ => 0, ρ⟩ (fun r => ∀ c : Dev nD,
      r.2.mem ((c.tc : Thread nD τ).loc main_v45) = meanOut (dist (m ((c.tc : Thread nD τ).loc main_arg0))) (m ((c.tc : Thread nD τ).loc main_arg1))
      ∧ r.2.mem ((c.tc : Thread nD τ).loc main_v39) = countOut (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨h45, h39, ha0, ha1⟩ := h c
    refine ⟨h45.trans ?_, h39.trans ?_, ha0, ha1⟩
    · have e : Cert.ReferenceIdeal.ValueP.res_main_v45 m c
          = val_main_v45 (F := Ideal) (m ((c.tc : Thread nD τ).loc main_arg0)) (m ((c.tc : Thread nD τ).loc main_arg1)) := by
        unfold Cert.ReferenceIdeal.ValueP.res_main_v45; rfl
      exact e.trans (mean_eq _ _)
    · exact (show _ = val_main_v39 (F := Ideal) (m ((c.tc : Thread nD τ).loc main_arg1)) from rfl).trans (ref_count _))
    (Cert.ReferenceIdeal.ValueP.run (F := Ideal) m ρ)

end Cert.ReferenceIdeal.RefValue

end
-- ==== Proof.lean ====
/-
  The certificate of the triplet-loss kernel against its jnp reference.

  Both programs take 384 embeddings of dimension 1024 and 384 integer labels. A triplet (a, p, n) of rows is valid when a and p
  carry the same label, a comes before p, and n carries another label; its hinge loss is max (D(a,p) − D(a,n) + 1) 0 over the
  squared pairwise distances D(i,j) = |x_i|² + |x_j|² − 2⟨x_i, x_j⟩. The results are the mean hinge loss over the valid triplets
  (0 when there is none) and their number as a 32-bit integer.

  The kernel computes D in one pallas_call and, in a second one, walks the anchors in 48 tiles of 8 rows (the grid) and the
  positives in 3 tiles of 128 columns (a counted loop), multiplying 0/1 masks into the losses and accumulating a float total and a
  float count in two [1,1] blocks; the host then divides and converts the count to an integer. The reference builds the
  [384,384,384] mask and loss arrays and reduces each in one sum, the count as an integer sum. Over the extended reals the two are
  the same numbers: a mask is 0 or 1 (0·x = 0 and 1·x = x hold for every extended real), sums may be regrouped and reordered freely
  (addition is commutative and associative, no finiteness is needed), a count below 2^31 converts exactly both ways, and a kernel's
  matrix product and lane sums are the host's. So the finite-inputs precondition is never opened.

  The three frames are the generated ones (the reference's is its run with the results dropped); the ideal pass rewrote nothing,
  so `preserves` is trivial; `algebraic` pairs the two runs read in Proof/Final.lean.
-/
import proofs.«111588_j85598698209924_1_alg».proof.Defs
import proofs.«111588_j85598698209924_1_alg».proof.Proof.Gen.Kernel
import proofs.«111588_j85598698209924_1_alg».proof.Proof.Gen.Kernel.Frame
import proofs.«111588_j85598698209924_1_alg».proof.Proof.Gen.KernelIdeal
import proofs.«111588_j85598698209924_1_alg».proof.Proof.Gen.KernelIdeal.Frame
import proofs.«111588_j85598698209924_1_alg».proof.Proof.Gen.ReferenceIdeal
import proofs.«111588_j85598698209924_1_alg».proof.Proof.Gen.Pre_finite_inputs
import proofs.«111588_j85598698209924_1_alg».proof.Proof.Final
import Idealize.ShloMosaic.Adequacy
import Idealize.ShloMosaic.Init

noncomputable section

namespace Cert.Proof

open Idealize.ShloMosaic Idealize.ShloMosaic.TcCoe Idealize.SL.Sem Cert.Triplet

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => ⟨(h c).2.2.1, (h c).2.2.2⟩)
    (Cert.ReferenceIdeal.ValueP.run (F := Ideal) m ρ),
  trivial,
  fun m ρ m' ρ' _ hagree =>
    ⟨fun c => meanOut (dist (Cert.KernelIdeal.RunValue.argX m c)) (Cert.KernelIdeal.RunValue.argL m c),
     fun c => countOut (Cert.KernelIdeal.RunValue.argL m c),
     Cert.KernelIdeal.RunValue.kernel_run m ρ,
     (θ_run Cert.ReferenceIdeal.defs _ _).mono (fun _ h c =>
        ⟨(h c).1.trans (by rw [(hagree c).1, (hagree c).2]), (h c).2.1.trans (by rw [(hagree c).2]), (h c).2.2.1, (h c).2.2.2⟩)
      (Cert.ReferenceIdeal.RefValue.ref_run m' ρ')⟩⟩

end Cert.Proof

end
